-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1433 : Shape := ⟨2, ![100000, 1433]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S2x3200000 : Shape := ⟨2, ![2, 3200000]⟩
abbrev S_ : Shape := ⟨0, ![]⟩

class Facts : Prop where
  bcast_S_S100000x1433 : S_.BroadcastsInDim S100000x1433 (![] : Fin 0 → Fin S100000x1433.rank)
  reducesTo_S100000x1433_S_d0_1 : S100000x1433.ReducesTo [0, 1] S_
  h_S_ : 0 < S_.numel
  bcast_S_S1433x16 : S_.BroadcastsInDim S1433x16 (![] : Fin 0 → Fin S1433x16.rank)
  reducesTo_S1433x16_S_d0_1 : S1433x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg4 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg4
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x1433 .f32) (main_arg1 : FVec F S1433x16 .f32) (main_arg2 : FVec F S16 .f32) (main_arg3 : FVec F S16x7 .f32) (main_arg4 : FVec F S7 .f32) (main_arg5 : IVec S2x3200000 32) : IVec S_ 1 :=
  let main_v0 : FVec F S100000x1433 .f32 := Host.absf main_arg0
  let main_cst : FVec F S_ .f32 := constant S_ .f32 0x7F800000#32
  let main_v1 : FVec F S100000x1433 .f32 := broadcastInDim S100000x1433 ![] bcast_S_S100000x1433 main_cst
  let main_v2 : IVec S100000x1433 1 := cmpf .olt main_v0 main_v1
  let main_c : IVec S_ 1 := constantI S_ 1 1#1
  let main_v3 : IVec S_ 1 := (fun x v => Host.reduce IntOp.andi x v reducesTo_S100000x1433_S_d0_1 h_S_) main_v2 main_c
  let main_v4 : FVec F S1433x16 .f32 := Host.absf main_arg1
  let main_cst_0 : FVec F S_ .f32 := constant S_ .f32 0x7F800000#32
  let main_v5 : FVec F S1433x16 .f32 := broadcastInDim S1433x16 ![] bcast_S_S1433x16 main_cst_0
  let main_v6 : IVec S1433x16 1 := cmpf .olt main_v4 main_v5
  let main_c_1 : IVec S_ 1 := constantI S_ 1 1#1
  let main_v7 : IVec S_ 1 := (fun x v => Host.reduce IntOp.andi x v reducesTo_S1433x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg3
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg4 main_v13 main_v16
-- ==== Kernel.lean ====
abbrev S100000x1433 : Shape := ⟨2, ![100000, 1433]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S2x3200000 : Shape := ⟨2, ![2, 3200000]⟩
abbrev S100000 : Shape := ⟨1, ![100000]⟩
abbrev S1x100000 : Shape := ⟨2, ![1, 100000]⟩
abbrev S2x100000 : Shape := ⟨2, ![2, 100000]⟩
abbrev S2x3300000 : Shape := ⟨2, ![2, 3300000]⟩
abbrev S1x3300000 : Shape := ⟨2, ![1, 3300000]⟩
abbrev S3300000 : Shape := ⟨1, ![3300000]⟩
abbrev S1x16 : Shape := ⟨2, ![1, 16]⟩
abbrev S100000x16 : Shape := ⟨2, ![100000, 16]⟩
abbrev S2000x1433 : Shape := ⟨2, ![2000, 1433]⟩
abbrev S2000x16 : Shape := ⟨2, ![2000, 16]⟩
abbrev S_ : Shape := ⟨0, ![]⟩
abbrev S3300000x1 : Shape := ⟨2, ![3300000, 1]⟩
abbrev S3300000x16 : Shape := ⟨2, ![3300000, 16]⟩
abbrev S1x7 : Shape := ⟨2, ![1, 7]⟩
abbrev S100000x7 : Shape := ⟨2, ![100000, 7]⟩
abbrev S2000x7 : Shape := ⟨2, ![2000, 7]⟩
abbrev S3300000x7 : Shape := ⟨2, ![3300000, 7]⟩
abbrev S100000x1 : Shape := ⟨2, ![100000, 1]⟩

abbrev nBuf : Space → Nat
  | .hbm => 127
  | .vmem => 12
  | .smem => 0
  | _ => 0

abbrev bufTy : (tb : Table) → Fin (tcTables nBuf tb) → BufTy
  | .hbm, ⟨0, _⟩ => ⟨S100000x1433, .f32⟩
  | .hbm, ⟨1, _⟩ => ⟨S1433x16, .f32⟩
  | .hbm, ⟨2, _⟩ => ⟨S16, .f32⟩
  | .hbm, ⟨3, _⟩ => ⟨S16x7, .f32⟩
  | .hbm, ⟨4, _⟩ => ⟨S7, .f32⟩
  | .hbm, ⟨5, _⟩ => ⟨S2x3200000, .i32⟩
  | .hbm, ⟨6, _⟩ => ⟨S100000, .i32⟩
  | .hbm, ⟨7, _⟩ => ⟨S1x100000, .i32⟩
  | .hbm, ⟨8, _⟩ => ⟨S2x100000, .i32⟩
  | .hbm, ⟨9, _⟩ => ⟨S2x3300000, .i32⟩
  | .hbm, ⟨10, _⟩ => ⟨S1x3300000, .i32⟩
  | .hbm, ⟨11, _⟩ => ⟨S3300000, .i32⟩
  | .hbm, ⟨12, _⟩ => ⟨S1x3300000, .i32⟩
  | .hbm, ⟨13, _⟩ => ⟨S3300000, .i32⟩
  | .hbm, ⟨14, _⟩ => ⟨S1x16, .f32⟩
  | .hbm, ⟨15, _⟩ => ⟨S100000x16, .f32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S3300000, .i32⟩
  | .hbm, ⟨27, _⟩ => ⟨S3300000, .i1⟩
  | .hbm, ⟨28, _⟩ => ⟨S_, .i32⟩
  | .hbm, ⟨29, _⟩ => ⟨S3300000, .i32⟩
  | .hbm, ⟨30, _⟩ => ⟨S3300000, .i32⟩
  | .hbm, ⟨31, _⟩ => ⟨S3300000, .i32⟩
  | .hbm, ⟨32, _⟩ => ⟨S3300000x1, .i32⟩
  | .hbm, ⟨33, _⟩ => ⟨S3300000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S3300000, .f32⟩
  | .hbm, ⟨44, _⟩ => ⟨S3300000x1, .f32⟩
  | .hbm, ⟨45, _⟩ => ⟨S_, .i32⟩
  | .hbm, ⟨46, _⟩ => ⟨S3300000, .i32⟩
  | .hbm, ⟨47, _⟩ => ⟨S3300000, .i1⟩
  | .hbm, ⟨48, _⟩ => ⟨S_, .i32⟩
  | .hbm, ⟨49, _⟩ => ⟨S3300000, .i32⟩
  | .hbm, ⟨50, _⟩ => ⟨S3300000, .i32⟩
  | .hbm, ⟨51, _⟩ => ⟨S3300000, .i32⟩
  | .hbm, ⟨52, _⟩ => ⟨S3300000x1, .i32⟩
  | .hbm, ⟨53, _⟩ => ⟨S3300000x16, .f32⟩
  | .hbm, ⟨54, _⟩ => ⟨S3300000x16, .f32⟩
  | .hbm, ⟨55, _⟩ => ⟨S3300000x16, .f32⟩
  | .hbm, ⟨56, _⟩ => ⟨S_, .f32⟩
  | .hbm, ⟨57, _⟩ => ⟨S100000x16, .f32⟩
  | .hbm, ⟨58, _⟩ => ⟨S3300000x1, .i32⟩
  | .hbm, ⟨59, _⟩ => ⟨S100000x16, .f32⟩
  | .hbm, ⟨60, _⟩ => ⟨S_, .f32⟩
  | .hbm, ⟨61, _⟩ => ⟨S100000x16, .f32⟩
  | .hbm, ⟨62, _⟩ => ⟨S100000x16, .f32⟩
  | .hbm, ⟨63, _⟩ => ⟨S1x7, .f32⟩
  | .hbm, ⟨64, _⟩ => ⟨S100000x7, .f32⟩
  | .hbm, ⟨65, _⟩ => ⟨S_, .f32⟩
  | .hbm, ⟨66, _⟩ => ⟨S3300000, .f32⟩
  | .hbm, ⟨67, _⟩ => ⟨S_, .f32⟩
  | .hbm, ⟨68, _⟩ => ⟨S100000, .f32⟩
  | .hbm, ⟨69, _⟩ => ⟨S3300000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S_, .i32⟩
  | .hbm, ⟨75, _⟩ => ⟨S3300000, .i32⟩
  | .hbm, ⟨76, _⟩ => ⟨S3300000, .i1⟩
  | .hbm, ⟨77, _⟩ => ⟨S_, .i32⟩
  | .hbm, ⟨78, _⟩ => ⟨S3300000, .i32⟩
  | .hbm, ⟨79, _⟩ => ⟨S3300000, .i32⟩
  | .hbm, ⟨80, _⟩ => ⟨S3300000, .i32⟩
  | .hbm, ⟨81, _⟩ => ⟨S3300000x1, .i32⟩
  | .hbm, ⟨82, _⟩ => ⟨S3300000, .f32⟩
  | .hbm, ⟨83, _⟩ => ⟨S_, .i32⟩
  | .hbm, ⟨84, _⟩ => ⟨S3300000, .i32⟩
  | .hbm, ⟨85, _⟩ => ⟨S3300000, .i1⟩
  | .hbm, ⟨86, _⟩ => ⟨S_, .i32⟩
  | .hbm, ⟨87, _⟩ => ⟨S3300000, .i32⟩
  | .hbm, ⟨88, _⟩ => ⟨S3300000, .i32⟩
  | .hbm, ⟨89, _⟩ => ⟨S3300000, .i32⟩
  | .hbm, ⟨90, _⟩ => ⟨S3300000x1, .i32⟩
  | .hbm, ⟨91, _⟩ => ⟨S3300000, .f32⟩
  | .hbm, ⟨92, _⟩ => ⟨S3300000, .f32⟩
  | .hbm, ⟨93, _⟩ => ⟨S3300000x1, .f32⟩
  | .hbm, ⟨94, _⟩ => ⟨S_, .i32⟩
  | .hbm, ⟨95, _⟩ => ⟨S3300000, .i32⟩
  | .hbm, ⟨96, _⟩ => ⟨S3300000, .i1⟩
  | .hbm, ⟨97, _⟩ => ⟨S_, .i32⟩
  | .hbm, ⟨98, _⟩ => ⟨S3300000, .i32⟩
  | .hbm, ⟨99, _⟩ => ⟨S3300000, .i32⟩
  | .hbm, ⟨100, _⟩ => ⟨S3300000, .i32⟩
  | .hbm, ⟨101, _⟩ => ⟨S3300000x1, .i32⟩
  | .hbm, ⟨102, _⟩ => ⟨S3300000x7, .f32⟩
  | .hbm, ⟨103, _⟩ => ⟨S3300000x7, .f32⟩
  | .hbm, ⟨104, _⟩ => ⟨S3300000x7, .f32⟩
  | .hbm, ⟨105, _⟩ => ⟨S_, .f32⟩
  | .hbm, ⟨106, _⟩ => ⟨S100000x7, .f32⟩
  | .hbm, ⟨107, _⟩ => ⟨S3300000x1, .i32⟩
  | .hbm, ⟨108, _⟩ => ⟨S100000x7, .f32⟩
  | .hbm, ⟨109, _⟩ => ⟨S_, .f32⟩
  | .hbm, ⟨110, _⟩ => ⟨S100000x7, .f32⟩
  | .hbm, ⟨111, _⟩ => ⟨S100000x7, .f32⟩
  | .hbm, ⟨112, _⟩ => ⟨S_, .f32⟩
  | .hbm, ⟨113, _⟩ => ⟨S100000, .f32⟩
  | .hbm, ⟨114, _⟩ => ⟨S_, .f32⟩
  | .hbm, ⟨115, _⟩ => ⟨S100000, .f32⟩
  | .hbm, ⟨116, _⟩ => ⟨S100000, .f32⟩
  | .hbm, ⟨117, _⟩ => ⟨S100000x1, .f32⟩
  | .hbm, ⟨118, _⟩ => ⟨S100000x7, .f32⟩
  | .hbm, ⟨119, _⟩ => ⟨S100000x7, .f32⟩
  | .hbm, ⟨120, _⟩ => ⟨S100000x7, .f32⟩
  | .hbm, ⟨121, _⟩ => ⟨S_, .f32⟩
  | .hbm, ⟨122, _⟩ => ⟨S100000, .f32⟩
  | .hbm, ⟨123, _⟩ => ⟨S100000x1, .f32⟩
  | .hbm, ⟨124, _⟩ => ⟨S100000x1, .f32⟩
  | .hbm, ⟨125, _⟩ => ⟨S100000x7, .f32⟩
  | .hbm, ⟨126, _⟩ => ⟨S100000x7, .f32⟩
  | .local _ .vmem, ⟨0, _⟩ => ⟨S2000x1433, .f32⟩
  | .local _ .vmem, ⟨1, _⟩ => ⟨S2000x1433, .f32⟩
  | .local _ .vmem, ⟨2, _⟩ => ⟨S1433x16, .f32⟩
  | .local _ .vmem, ⟨3, _⟩ => ⟨S1x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S2000x16, .f32⟩
  | .local _ .vmem, ⟨8, _⟩ => ⟨S16x7, .f32⟩
  | .local _ .vmem, ⟨9, _⟩ => ⟨S1x7, .f32⟩
  | .local _ .vmem, ⟨10, _⟩ => ⟨S2000x7, .f32⟩
  | .local _ .vmem, ⟨11, _⟩ => ⟨S2000x7, .f32⟩
  | _, _ => ⟨S100000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call0_cst : Ref sig .tc := ⟨.hbm, 60, rfl⟩
abbrev main_call0_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_13 : Ref sig .tc := ⟨.hbm, 83, rfl⟩
abbrev main_v60 : Ref sig .tc := ⟨.hbm, 84, rfl⟩
abbrev main_v61 : Ref sig .tc := ⟨.hbm, 85, rfl⟩
abbrev main_c_14 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_15 : Ref sig .tc := ⟨.hbm, 94, rfl⟩
abbrev main_v69 : Ref sig .tc := ⟨.hbm, 95, rfl⟩
abbrev main_v70 : Ref sig .tc := ⟨.hbm, 96, rfl⟩
abbrev main_c_16 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_17 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_call1_cst : Ref sig .tc := ⟨.hbm, 109, rfl⟩
abbrev main_call1_v0 : Ref sig .tc := ⟨.hbm, 110, rfl⟩
abbrev main_v81 : Ref sig .tc := ⟨.hbm, 111, rfl⟩
abbrev main_call2_cst : Ref sig .tc := ⟨.hbm, 112, rfl⟩
abbrev main_call2_v0 : Ref sig .tc := ⟨.hbm, 113, rfl⟩
abbrev main_call2_cst_0 : Ref sig .tc := ⟨.hbm, 114, rfl⟩
abbrev main_call2_v1 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_v6 : Ref sig .tc := ⟨.hbm, 120, rfl⟩
abbrev main_call2_cst_1 : Ref sig .tc := ⟨.hbm, 121, rfl⟩
abbrev main_call2_v7 : Ref sig .tc := ⟨.hbm, 122, rfl⟩
abbrev main_call2_v8 : Ref sig .tc := ⟨.hbm, 123, rfl⟩
abbrev main_call2_v9 : Ref sig .tc := ⟨.hbm, 124, rfl⟩
abbrev main_call2_v10 : Ref sig .tc := ⟨.hbm, 125, rfl⟩
abbrev main_v82 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x7 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S100000_S1x100000_1 : S100000.BroadcastsInDim S1x100000 (![1] : Fin 1 → Fin S1x100000.rank)
  bcast_S1x100000_S2x100000_0_1 : S1x100000.BroadcastsInDim S2x100000 (![0, 1] : Fin 2 → Fin S2x100000.rank)
  concatenates_S2x3200000_S2x100000_S2x3300000_d1 : Shape.Concatenates [S2x3200000, S2x100000] S2x3300000 1
  slices_S2x3300000_S1x3300000_0_0 : S2x3300000.Slices ![0, 0] S1x3300000
  shapeCasts_S1x3300000_S3300000 : S1x3300000.ShapeCasts S3300000
  slices_S2x3300000_S1x3300000_1_0 : S2x3300000.Slices ![1, 0] S1x3300000
  shapeCasts_S16_S1x16 : S16.ShapeCasts S1x16
  inb_S2000x1433_S2000x1433_0_0 : ∀ a, (![0, 0] : Fin 2 → Nat) a + S2000x1433.size a ≤ S2000x1433.size a
  h_S2000x1433 : 0 < S2000x1433.numel
  bitsLt_bf16_f32 : FTy.bits .bf16 < FTy.bits .f32
  inb_S1433x16_S1433x16_0_0 : ∀ a, (![0, 0] : Fin 2 → Nat) a + S1433x16.size a ≤ S1433x16.size a
  h_S1433x16 : 0 < S1433x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S7_S1x7 : S7.ShapeCasts S1x7
  shapeCasts_S2000x16_S2000x16 : S2000x16.ShapeCasts S2000x16
  inb_S16x7_S16x7_0_0 : ∀ a, (![0, 0] : Fin 2 → Nat) a + S16x7.size a ≤ S16x7.size a
  h_S16x7 : 0 < S16x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S2000x7 : S1x7.Broadcasts S2000x7
  inb_S2000x7_S2000x7_0_0 : ∀ a, (![0, 0] : Fin 2 → Nat) a + S2000x7.size a ≤ S2000x7.size a
  h_S2000x7 : 0 < S2000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  dot_S2000x1433_S1433x16_S2000x16_1_0_0_1_n_n_wf : DotDims.WF S2000x1433 S1433x16 S2000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x7_S2000x7_1_0_0_1_n_n_wf : DotDims.WF S2000x16 S16x7 S2000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1433.size a ≤ S100000x1433.size a
  hwx0_0 : ∀ i : grid0.Coords, EltTy.bits .f32 = 32 ∨ (Rect.block (s := S100000x1433) S2000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x16.size a ≤ S1433x16.size a
  hwx0_1 : ∀ i : grid0.Coords, EltTy.bits .f32 = 32 ∨ (Rect.block (s := S1433x16) S1433x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x16.size a ≤ S100000x16.size a
  hwx0_3 : ∀ i : grid0.Coords, EltTy.bits .f32 = 32 ∨ (Rect.block (s := S100000x16) S2000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x7.size a ≤ S16x7.size a
  hwx1_1 : ∀ i : grid1.Coords, EltTy.bits .f32 = 32 ∨ (Rect.block (s := S16x7) S16x7.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x7.size a ≤ S1x7.size a
  hwx1_2 : ∀ i : grid1.Coords, EltTy.bits .f32 = 32 ∨ (Rect.block (s := S1x7) S1x7.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x7.size a ≤ S100000x7.size a
  hwx1_3 : ∀ i : grid1.Coords, EltTy.bits .f32 = 32 ∨ (Rect.block (s := S100000x7) S2000x7.size (cc1_transform_3 i) (hinb1_3 i)).WholeWords (EltTy.packing .f32)

variable [Facts₀]

def dot_S2000x1433_S1433x16_S2000x16_1_0_0_1_n_n : DotDims S2000x1433 S1433x16 S2000x16 where
  lhsContracting := [1]
  rhsContracting := [0]
  lhsNonContracting := [0]
  rhsNonContracting := [1]
  lhsBatch := []
  rhsBatch := []
  wf := dot_S2000x1433_S1433x16_S2000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x7_S2000x7_1_0_0_1_n_n : DotDims S2000x16 S16x7 S2000x7 where
  lhsContracting := [1]
  rhsContracting := [0]
  lhsNonContracting := [0]
  rhsNonContracting := [1]
  lhsBatch := []
  rhsBatch := []
  wf := dot_S2000x16_S16x7_S2000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S2000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1433x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S16x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S2000x7.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x1433 : Shape := ⟨2, ![100000, 1433]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S2x3200000 : Shape := ⟨2, ![2, 3200000]⟩
abbrev S100000 : Shape := ⟨1, ![100000]⟩
abbrev S1x100000 : Shape := ⟨2, ![1, 100000]⟩
abbrev S2x100000 : Shape := ⟨2, ![2, 100000]⟩
abbrev S2x3300000 : Shape := ⟨2, ![2, 3300000]⟩
abbrev S1x3300000 : Shape := ⟨2, ![1, 3300000]⟩
abbrev S3300000 : Shape := ⟨1, ![3300000]⟩
abbrev S100000x16 : Shape := ⟨2, ![100000, 16]⟩
abbrev S1x16 : Shape := ⟨2, ![1, 16]⟩
abbrev S_ : Shape := ⟨0, ![]⟩
abbrev S3300000x1 : Shape := ⟨2, ![3300000, 1]⟩
abbrev S3300000x16 : Shape := ⟨2, ![3300000, 16]⟩
abbrev S100000x7 : Shape := ⟨2, ![100000, 7]⟩
abbrev S1x7 : Shape := ⟨2, ![1, 7]⟩
abbrev S3300000x7 : Shape := ⟨2, ![3300000, 7]⟩
abbrev S100000x1 : Shape := ⟨2, ![100000, 1]⟩

abbrev nBuf : Space → Nat
  | .hbm => 131
  | .vmem => 0
  | .smem => 0
  | _ => 0

abbrev hbmTy0_0 (i : Nat) : BufTy := match i % 128 with
  | 0 => ⟨S100000x1433, .f32⟩
  | 1 => ⟨S1433x16, .f32⟩
  | 2 => ⟨S16, .f32⟩
  | 3 => ⟨S16x7, .f32⟩
  | 4 => ⟨S7, .f32⟩
  | 5 => ⟨S2x3200000, .i32⟩
  | 6 => ⟨S100000, .i32⟩
  | 7 => ⟨S1x100000, .i32⟩
  | 8 => ⟨S2x100000, .i32⟩
  | 9 => ⟨S2x3300000, .i32⟩
  | 10 => ⟨S1x3300000, .i32⟩
  | 11 => ⟨S3300000, .i32⟩
  | 12 => ⟨S1x3300000, .i32⟩
  | 13 => ⟨S3300000, .i32⟩
  | 14 => ⟨S100000x16, .f32⟩
  | 15 => ⟨S1x16, .f32⟩
  | 16 => ⟨S100000x16, .f32⟩
  | 17 => ⟨S100000x16, .f32⟩
  | 18 => ⟨S_, .f32⟩
  | 19 => ⟨S3300000, .f32⟩
  | 20 => ⟨S_, .f32⟩
  | 21 => ⟨S100000, .f32⟩
  | 22 => ⟨S3300000x1, .i32⟩
  | 23 => ⟨S100000, .f32⟩
  | 24 => ⟨S_, .f32⟩
  | 25 => ⟨S100000, .f32⟩
  | 26 => ⟨S100000, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S3300000x1, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x16, .f32⟩
  | 57 => ⟨S3300000x16, .f32⟩
  | 58 => ⟨S_, .f32⟩
  | 59 => ⟨S100000x16, .f32⟩
  | 60 => ⟨S3300000x1, .i32⟩
  | 61 => ⟨S100000x16, .f32⟩
  | 62 => ⟨S_, .f32⟩
  | 63 => ⟨S100000x16, .f32⟩
  | 64 => ⟨S100000x16, .f32⟩
  | 65 => ⟨S100000x7, .f32⟩
  | 66 => ⟨S1x7, .f32⟩
  | 67 => ⟨S100000x7, .f32⟩
  | 68 => ⟨S100000x7, .f32⟩
  | 69 => ⟨S_, .f32⟩
  | 70 => ⟨S3300000, .f32⟩
  | 71 => ⟨S_, .f32⟩
  | 72 => ⟨S100000, .f32⟩
  | 73 => ⟨S3300000x1, .i32⟩
  | 74 => ⟨S100000, .f32⟩
  | 75 => ⟨S_, .f32⟩
  | 76 => ⟨S100000, .f32⟩
  | 77 => ⟨S100000, .f32⟩
  | 78 => ⟨S_, .i32⟩
  | 79 => ⟨S3300000, .i32⟩
  | 80 => ⟨S3300000, .i1⟩
  | 81 => ⟨S_, .i32⟩
  | 82 => ⟨S3300000, .i32⟩
  | 83 => ⟨S3300000, .i32⟩
  | 84 => ⟨S3300000, .i32⟩
  | 85 => ⟨S3300000x1, .i32⟩
  | 86 => ⟨S3300000, .f32⟩
  | 87 => ⟨S_, .i32⟩
  | 88 => ⟨S3300000, .i32⟩
  | 89 => ⟨S3300000, .i1⟩
  | 90 => ⟨S_, .i32⟩
  | 91 => ⟨S3300000, .i32⟩
  | 92 => ⟨S3300000, .i32⟩
  | 93 => ⟨S3300000, .i32⟩
  | 94 => ⟨S3300000x1, .i32⟩
  | 95 => ⟨S3300000, .f32⟩
  | 96 => ⟨S3300000, .f32⟩
  | 97 => ⟨S3300000x1, .f32⟩
  | 98 => ⟨S_, .i32⟩
  | 99 => ⟨S3300000, .i32⟩
  | 100 => ⟨S3300000, .i1⟩
  | 101 => ⟨S_, .i32⟩
  | 102 => ⟨S3300000, .i32⟩
  | 103 => ⟨S3300000, .i32⟩
  | 104 => ⟨S3300000, .i32⟩
  | 105 => ⟨S3300000x1, .i32⟩
  | 106 => ⟨S3300000x7, .f32⟩
  | 107 => ⟨S3300000x7, .f32⟩
  | 108 => ⟨S3300000x7, .f32⟩
  | 109 => ⟨S_, .f32⟩
  | 110 => ⟨S100000x7, .f32⟩
  | 111 => ⟨S3300000x1, .i32⟩
  | 112 => ⟨S100000x7, .f32⟩
  | 113 => ⟨S_, .f32⟩
  | 114 => ⟨S100000x7, .f32⟩
  | 115 => ⟨S100000x7, .f32⟩
  | 116 => ⟨S_, .f32⟩
  | 117 => ⟨S100000, .f32⟩
  | 118 => ⟨S_, .f32⟩
  | 119 => ⟨S100000, .f32⟩
  | 120 => ⟨S100000, .f32⟩
  | 121 => ⟨S100000x1, .f32⟩
  | 122 => ⟨S100000x7, .f32⟩
  | 123 => ⟨S100000x7, .f32⟩
  | 124 => ⟨S100000x7, .f32⟩
  | 125 => ⟨S_, .f32⟩
  | 126 => ⟨S100000, .f32⟩
  | 127 => ⟨S100000x1, .f32⟩
  | _ => ⟨S100000x1433, .f32⟩

abbrev hbmTy0_1 (i : Nat) : BufTy := match i % 128 with
  | 0 => ⟨S100000x1, .f32⟩
  | 1 => ⟨S100000x7, .f32⟩
  | 2 => ⟨S100000x7, .f32⟩
  | _ => ⟨S100000x1433, .f32⟩

abbrev hbmTy (i : Nat) : BufTy := match i / 128 with
  | 0 => hbmTy0_0 i
  | 1 => hbmTy0_1 i
  | _ => ⟨S100000x1433, .f32⟩

abbrev bufTy : (tb : Table) → Fin (tcTables nBuf tb) → BufTy
  | .hbm, ⟨i, _⟩ => hbmTy i
  | _, _ => ⟨S100000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_5 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_15 : Ref sig .tc := ⟨.hbm, 98, rfl⟩
abbrev main_v73 : Ref sig .tc := ⟨.hbm, 99, rfl⟩
abbrev main_v74 : Ref sig .tc := ⟨.hbm, 100, rfl⟩
abbrev main_c_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_call1_cst : Ref sig .tc := ⟨.hbm, 113, rfl⟩
abbrev main_call1_v0 : Ref sig .tc := ⟨.hbm, 114, rfl⟩
abbrev main_v85 : Ref sig .tc := ⟨.hbm, 115, rfl⟩
abbrev main_call2_cst : Ref sig .tc := ⟨.hbm, 116, rfl⟩
abbrev main_call2_v0 : Ref sig .tc := ⟨.hbm, 117, rfl⟩
abbrev main_call2_cst_0 : Ref sig .tc := ⟨.hbm, 118, rfl⟩
abbrev main_call2_v1 : Ref sig .tc := ⟨.hbm, 119, rfl⟩
abbrev main_call2_v2 : Ref sig .tc := ⟨.hbm, 120, rfl⟩
abbrev main_call2_v3 : Ref sig .tc := ⟨.hbm, 121, rfl⟩
abbrev main_call2_v4 : Ref sig .tc := ⟨.hbm, 122, rfl⟩
abbrev main_call2_v5 : Ref sig .tc := ⟨.hbm, 123, rfl⟩
abbrev main_call2_v6 : Ref sig .tc := ⟨.hbm, 124, rfl⟩
abbrev main_call2_cst_1 : Ref sig .tc := ⟨.hbm, 125, rfl⟩
abbrev main_call2_v7 : Ref sig .tc := ⟨.hbm, 126, rfl⟩
abbrev main_call2_v8 : Ref sig .tc := ⟨.hbm, 127, rfl⟩
abbrev main_call2_v9 : Ref sig .tc := ⟨.hbm, 128, rfl⟩
abbrev main_call2_v10 : Ref sig .tc := ⟨.hbm, 129, rfl⟩
abbrev main_v86 : Ref sig .tc := ⟨.hbm, 130, rfl⟩

abbrev nD : Nat := 1
abbrev τ : Topo := Topo.v7x

variable {F : FTy → Type} [FloatOps F]

class Facts₀ : Prop where
  bcast_S100000_S1x100000_1 : S100000.BroadcastsInDim S1x100000 (![1] : Fin 1 → Fin S1x100000.rank)
  bcast_S1x100000_S2x100000_0_1 : S1x100000.BroadcastsInDim S2x100000 (![0, 1] : Fin 2 → Fin S2x100000.rank)
  concatenates_S2x3200000_S2x100000_S2x3300000_d1 : Shape.Concatenates [S2x3200000, S2x100000] S2x3300000 1
  slices_S2x3300000_S1x3300000_0_0 : S2x3300000.Slices ![0, 0] S1x3300000
  shapeCasts_S1x3300000_S3300000 : S1x3300000.ShapeCasts S3300000
  slices_S2x3300000_S1x3300000_1_0 : S2x3300000.Slices ![1, 0] S1x3300000
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  dot_S100000x1433_S1433x16_S100000x16_1_0_0_1_n_n_wf : DotDims.WF S100000x1433 S1433x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def dot_S100000x1433_S1433x16_S100000x16_1_0_0_1_n_n : DotDims S100000x1433 S1433x16 S100000x16 where
  lhsContracting := [1]
  rhsContracting := [0]
  lhsNonContracting := [0]
  rhsNonContracting := [1]
  lhsBatch := []
  rhsBatch := []
  wf := dot_S100000x1433_S1433x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.KernelRun.lean ====
/-
  The kernel program's run with its result buffer read: every weakly fair execution of @main terminates, nothing
  faulting, with the result buffer holding what the chain of segment boundaries leaves there (`W9`: the launch memory
  taken through the host operations before the first call, the first call's write-backs, the host operations between
  the calls, the second call's write-backs and the host operations after it), and the six arguments as launched.
  The launch over @main's nine segments (a host segment per stretch of host operations, a region per call) ends with every
  unscoped buffer at `W9`, the result buffer among them; the arguments are read back through the chain to the launch
  memory.  Stated at any float instance.
-/
import proofs.«176563_j3332894622171_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result buffer named. -/
theorem run_named : θ_run defs (onTc (τ := τ) (main (F := F))) ⟨m, fun _ => 0, ρ⟩ (fun r => ∀ c : Dev nD,
      r.2.mem ((c.tc : Thread nD τ).loc main_v82) = W9 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v82 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Run

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«176563_j3332894622171_1_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.LibDenseLayers.lean ====
/-
  One dense layer, x · W + b, read at an entry on the extended reals, in the two spellings it has here: a pipelined
  kernel body's (a matrix product of the operands narrowed to bf16 into the zero accumulator, plus the bias row kept as a
  [1, N] block and repeated down the rows) and a host program's (a dot_general plus the same row repeated by a
  broadcast_in_dim).  On the extended reals a change of float format is the identity and both products are the plain
  sum over the contracted axis, so both spellings read, at (r, g), as  Σₖ x (r, k) · W (k, g) + b (0, g).

  For any extents R, K, N.  Also here: the same for a second product h · W without bias (`dotAt`), the host's zero
  matrix read at an entry, a bias vector made a [1, N] row by a reshape against the row a broadcast_in_dim along axis 1
  makes of it (`row_of_vector`), and the whole-matrix layer functions the entries belong to: x · W + b (`affLayer`),
  its rectification (`projLayer`) and the rectified two-input layer (a · Wl + b) + h · Wr (`sageLayer`).
-/
import Idealize.ShloMosaic.Lib.Pipeline.Value
import Idealize.ShloMosaic.Lib.ValueIdx
import Idealize.ShloMosaic.PureOps.Ideal.Laws
import proofs.«176563_j3332894622171_1_alg».proof.Proof.LibPlainMatmul
import proofs.«176563_j3332894622171_1_alg».proof.Proof.LibPlainDot
import proofs.«176563_j3332894622171_1_alg».proof.Proof.LibHostRows
import proofs.«176563_j3332894622171_1_alg».proof.Proof.LibBlockLayout

noncomputable section

open scoped BigOperators

namespace Cert.SageLayers

open Idealize.ShloMosaic Idealize.ShloMosaic.ValueIdx

variable {R K N : ℕ}

/-- Entry (r, g) of x · W + b, the bias a [1, N] row. -/
def affineAt (A : (⟨2, ![R, K]⟩ : Shape).Idx → EReal) (W : (⟨2, ![K, N]⟩ : Shape).Idx → EReal)
    (b : (⟨2, ![1, N]⟩ : Shape).Idx → EReal) (r : Fin R) (g : Fin N) : EReal :=
  (∑ k : Fin K, A (ix2 r k) * W (ix2 k g)) + b (ix2 (0 : Fin 1) g)

/-- The zero word of f32, on the extended reals. -/
abbrev zeroF : EReal := Ideal.ofBits .f32 0x00000000#32

/-- Entry (r, g) of h · W. -/
def dotAt (H : (⟨2, ![R, K]⟩ : Shape).Idx → EReal) (W : (⟨2, ![K, N]⟩ : Shape).Idx → EReal) (r : Fin R) (g : Fin N) : EReal :=
  ∑ k : Fin K, H (ix2 r k) * W (ix2 k g)

/-- The layer x · W + b as a whole matrix. -/
def affLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => affineAt A W b (i 0) (i 1)

/-- The rectified layer max (x · W + b, 0) as a whole matrix. -/
def projLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => max (affineAt A W b (i 0) (i 1)) zeroF

/-- The rectified two-input layer max ((a · Wl + b) + h · Wr, 0) as a whole matrix. -/
def sageLayer {K' : ℕ} (A : (⟨2, ![R, K]⟩ : Shape).Idx → EReal) (H : (⟨2, ![R, K']⟩ : Shape).Idx → EReal)
    (Wl : (⟨2, ![K, N]⟩ : Shape).Idx → EReal) (b : (⟨2, ![1, N]⟩ : Shape).Idx → EReal)
    (Wr : (⟨2, ![K', N]⟩ : Shape).Idx → EReal) : (⟨2, ![R, N]⟩ : Shape).Idx → EReal :=
  fun i => max (affineAt A Wl b (i 0) (i 1) + dotAt H Wr (i 0) (i 1)) zeroF

/-- The kernel body's second product, read at an entry. -/
theorem kernel_dot_at (H : FVec Ideal ⟨2, ![R, K]⟩ .f32) (W : FVec Ideal ⟨2, ![K, N]⟩ .f32)
    (h1 : FTy.bf16.bits < FTy.f32.bits) (h2 : FTy.bf16.bits < FTy.f32.bits) (r : Fin R) (g : Fin N) :
    matmul (DotDims.plain R K N) none (truncf .bf16 H h1) (truncf .bf16 W h2) (constant ⟨2, ![R, N]⟩ .f32 0x00000000#32) (ix2 r g)
      = dotAt H W r g :=
  Cert.LibPlainMatmul.matmul_zero_apply none (truncf .bf16 H h1) (truncf .bf16 W h2) r g

/-- The host's product read at an entry. -/
theorem host_dot_at (H : FVec Ideal ⟨2, ![R, K]⟩ .f32) (W : FVec Ideal ⟨2, ![K, N]⟩ .f32) (r : Fin R) (g : Fin N) :
    Host.dotGeneral (DotDims.plain R K N) none H W (ix2 r g) = dotAt H W r g :=
  Cert.LibPlainDot.dotGeneral_apply none H W r g

/-- The host's zero matrix read at an entry. -/
theorem host_zero_at {s : Shape} (d : Fin (⟨0, ![]⟩ : Shape).rank → Fin s.rank) (hb : (⟨0, ![]⟩ : Shape).BroadcastsInDim s d)
    (i : s.Idx) : broadcastInDim s d hb (constant (F := Ideal) ⟨0, ![]⟩ .f32 0x00000000#32) i = zeroF :=
  broadcastInDim_apply d hb _ i ix0 (fun a => a.elim0)

/-- The kernel body's spelling of the layer before its rectifier. -/
theorem kernel_affine_at (A : FVec Ideal ⟨2, ![R, K]⟩ .f32) (W : FVec Ideal ⟨2, ![K, N]⟩ .f32)
    (b : FVec Ideal ⟨2, ![1, N]⟩ .f32) (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![R, N]⟩)
    (r : Fin R) (g : Fin N) :
    addf (matmul (DotDims.plain R K N) none (truncf .bf16 A h1) (truncf .bf16 W h2) (constant ⟨2, ![R, N]⟩ .f32 0x00000000#32))
        (broadcastTo ⟨2, ![R, N]⟩ (shapeCast ⟨2, ![1, N]⟩ b hc) hb) (ix2 r g)
      = affineAt A W b r g := by
  rw [addf_apply]
  refine congrArg₂ (· + ·) ?_ ?_
  · exact Cert.LibPlainMatmul.matmul_zero_apply none (truncf .bf16 A h1) (truncf .bf16 W h2) r g
  · rw [Cert.LibBlockLayout.rowBroadcast_at, shapeCast_self]

/-- The host's spelling of the layer before its rectifier, the bias given as a vector. -/
theorem host_affine_at (A : FVec Ideal ⟨2, ![R, K]⟩ .f32) (W : FVec Ideal ⟨2, ![K, N]⟩ .f32)
    (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (r : Fin R) (g : Fin N) :
    addf (Host.dotGeneral (DotDims.plain R K N) none A W)
        (broadcastInDim ⟨2, ![R, N]⟩ d2 hb2 (broadcastInDim ⟨2, ![1, N]⟩ d1 hb1 b)) (ix2 r g)
      = affineAt A W (broadcastInDim ⟨2, ![1, N]⟩ d1 hb1 b) r g := by
  rw [addf_apply]
  refine congrArg₂ (· + ·) ?_ ?_
  · exact Cert.LibPlainDot.dotGeneral_apply none A W r g
  · exact Cert.LibHostRows.bcast_1b_ab_at d2 hd20 hd21 hb2 _ r g

/-- A vector kept as a [1, N] row by a reshape is the same row a broadcast_in_dim along axis 1 makes of it. -/
theorem row_of_vector (b : (⟨1, ![N]⟩ : Shape).Idx → EReal)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (hc : (⟨1, ![N]⟩ : Shape).ShapeCasts ⟨2, ![1, N]⟩) :
    broadcastInDim ⟨2, ![1, N]⟩ d1 hb1 b = shapeCast ⟨2, ![1, N]⟩ b hc := by
  funext i
  obtain ⟨u, j, rfl⟩ : ∃ (u : Fin 1) (j : Fin N), i = ix2 u j := ⟨i 0, i 1, eq_ix2 i⟩
  rw [Cert.LibHostRows.bcast_b_1b_at d1 hd1 hb1 b u j]
  refine (shapeCast_apply b hc (ix2 u j) (ix1 j) ?_).symm
  rw [Shape.rowMajor_val_one, Shape.rowMajor_val_two]
  have hu : u.val = 0 := by omega
  show j.val = u.val * N + j.val
  rw [hu, Nat.zero_mul, Nat.zero_add]

end Cert.SageLayers

end
-- ==== Proof.KernelTiles.lean ====
/-
  The two pipelined dense layers of the kernel program, each as ONE whole matrix.

  A pallas_call here walks 50 row tiles of 2000 rows.  At tile t its body loads rows 2000·t … 2000·t + 1999 of the node
  matrix, the whole weight matrix and the whole [1, N] bias row, and stores  (tile · W) + bias row  into the same rows
  of the result.  Entry (p, q) of that store is  Σₖ tile(p, k)·W(k, q) + b(0, q)  on the extended reals (the narrowing
  to bf16 before the product is the identity there), which is entry (2000·t + p, q) of the whole-matrix layer
  `affLayer X W b`.  The 50 tiles cover every row, so the result array ends as `affLayer` of the arrays the region
  found: `final0` for the first call (K = 1433, N = 16), `final1` for the second (K = 16, N = 7).  Both are stated at
  any contents `V` of the buffers at the region's entry.
-/
import proofs.«176563_j3332894622171_1_alg».proof.Proof.Gen.KernelIdeal.Frame
import proofs.«176563_j3332894622171_1_alg».proof.Proof.LibDenseLayers
import Idealize.ShloMosaic.Lib.Pipeline.Value
import Idealize.ShloMosaic.Lib.ValueIdx

set_option maxRecDepth 16384

noncomputable section

namespace Cert.KernelIdeal.Tiles

open Cert.KernelIdeal Cert.KernelIdeal.Gen Idealize.ShloMosaic Idealize.ShloMosaic.TcCoe
  Idealize.ShloMosaic.ValueIdx Idealize.SL.Sem Cert.SageLayers
open Idealize.ShloMosaic.Pipeline (Dat)
open scoped BigOperators

theorem hz : (![0, 0] : Fin 2 → Nat) = fun _ => 0 := funext fun a => by fin_cases a <;> rfl

/-! ## The bodies' stores at an entry -/

/-- The first body's store at (p, q): the tile's row p against column q of the weights, plus the bias row's entry q. -/
theorem pay0_at (x0 : Vec Ideal S2000x1433 .f32) (x1 : Vec Ideal S1433x16 .f32) (x2 : Vec Ideal S1x16 .f32)
    (p : Fin 2000) (q : Fin 16) :
    k0_pay1 x0 x1 x2 (ix2 p q) = affineAt (R := 2000) (K := 1433) (N := 16) x0 x1 x2 p q := by
  unfold k0_pay1
  exact kernel_affine_at (R := 2000) (K := 1433) (N := 16) x0 x1 x2 bitsLt_bf16_f32 bitsLt_bf16_f32
    shapeCasts_S1x16_S1x16 broadcasts_S1x16_S2000x16 p q

/-- The second body's store at (p, q); its tile passes through a cast to its own shape first. -/
theorem pay1_at (x0 : Vec Ideal S2000x16 .f32) (x1 : Vec Ideal S16x7 .f32) (x2 : Vec Ideal S1x7 .f32)
    (p : Fin 2000) (q : Fin 7) :
    k1_pay1 x0 x1 x2 (ix2 p q) = affineAt (R := 2000) (K := 16) (N := 7) x0 x1 x2 p q := by
  unfold k1_pay1
  refine (kernel_affine_at (R := 2000) (K := 16) (N := 7) (shapeCast S2000x16 x0 shapeCasts_S2000x16_S2000x16) x1 x2
    bitsLt_bf16_f32 bitsLt_bf16_f32 shapeCasts_S1x7_S1x7 broadcasts_S1x7_S2000x7 p q).trans ?_
  rw [shapeCast_self]

/-- A tile's store at (p, q) is the whole layer's entry at an index i, once the tile's row p is the node matrix's row
    i 0, the loaded weights the whole weights, and the loaded bias row the whole bias row. -/
theorem tile0_at (X : FVec Ideal ⟨2, ![100000, 1433]⟩ .f32) (W : FVec Ideal ⟨2, ![1433, 16]⟩ .f32) (B : FVec Ideal ⟨2, ![1, 16]⟩ .f32)
    (x0 : Vec Ideal S2000x1433 .f32) (x1 : Vec Ideal S1433x16 .f32) (x2 : Vec Ideal S1x16 .f32)
    (p : Fin 2000) (q : Fin 16) (i : S100000x16.Idx)
    (h0 : ∀ k : Fin 1433, x0 (ix2 p k) = X (ix2 (i 0) k))
    (h1 : ∀ k : Fin 1433, x1 (ix2 k q) = W (ix2 k (i 1)))
    (h2 : x2 (ix2 (0 : Fin 1) q) = B (ix2 (0 : Fin 1) (i 1))) :
    k0_pay1 x0 x1 x2 (ix2 p q) = affLayer (R := 100000) (K := 1433) (N := 16) X W B i := by
  rw [pay0_at]
  unfold affLayer affineAt
  rw [h2]
  refine congrArg₂ (· + ·) (Finset.sum_congr rfl fun k _ => ?_) rfl
  rw [h0 k, h1 k]

theorem tile1_at (X : FVec Ideal ⟨2, ![100000, 16]⟩ .f32) (W : FVec Ideal ⟨2, ![16, 7]⟩ .f32) (B : FVec Ideal ⟨2, ![1, 7]⟩ .f32)
    (x0 : Vec Ideal S2000x16 .f32) (x1 : Vec Ideal S16x7 .f32) (x2 : Vec Ideal S1x7 .f32)
    (p : Fin 2000) (q : Fin 7) (i : S100000x7.Idx)
    (h0 : ∀ k : Fin 16, x0 (ix2 p k) = X (ix2 (i 0) k))
    (h1 : ∀ k : Fin 16, x1 (ix2 k q) = W (ix2 k (i 1)))
    (h2 : x2 (ix2 (0 : Fin 1) q) = B (ix2 (0 : Fin 1) (i 1))) :
    k1_pay1 x0 x1 x2 (ix2 p q) = affLayer (R := 100000) (K := 16) (N := 7) X W B i := by
  rw [pay1_at]
  unfold affLayer affineAt
  rw [h2]
  refine congrArg₂ (· + ·) (Finset.sum_congr rfl fun k _ => ?_) rfl
  rw [h0 k, h1 k]

variable (V : (c : Dev nD) → (b : Ref sig .tc) → Buf (Elt Ideal) ((c : Thread nD τ).loc b))

/-! ## The first call -/

/-- The printed index maps over the 50 points: the node tile and the result tile are at block row t, every other block
    index is 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the whole layer of the arrays the region found. -/
theorem flushed0 (c : Dev nD) (t : Fin cfg0.N) :
    (dat0 V c).flushed 3 t = ((cfg0.win 3).blk t).view.read (Elt Ideal)
      (affLayer (R := 100000) (K := 1433) (N := 16) (V c main_arg0) (V c main_arg1) (V c main_v8)) := by
  show (cfg0.win 3).cut (grid0.coords t) ((dat0 V c).after 3 t) = _
  rw [after0_3]
  unfold out0_3
  rw [View.canon_unit_zero hz]
  simp only [View.ld_unit_zero (S := S2000x1433) hz, View.ld_unit_zero (S := S1433x16) hz, View.ld_unit_zero (S := S1x16) hz]
  obtain ⟨e0, e1, e2, e3, e4, e5, e6, e7⟩ := idx_facts0 t
  funext j
  obtain ⟨p, q, rfl⟩ : ∃ (p : Fin 2000) (q : Fin 16), j = ix2 p q := ⟨j 0, j 1, eq_ix2 j⟩
  show k0_pay1 (iblk0 V c 0 t) (iblk0 V c 1 t) (iblk0 V c 2 t) (ix2 p q)
    = affLayer (R := 100000) (K := 1433) (N := 16) (V c main_arg0) (V c main_arg1) (V c main_v8) (((cfg0.win 3).blk t).view.emb (ix2 p q))
  refine tile0_at (V c main_arg0) (V c main_arg1) (V c main_v8) (iblk0 V c 0 t) (iblk0 V c 1 t) (iblk0 V c 2 t) p q
    (((cfg0.win 3).blk t).view.emb (ix2 p q)) ?_ ?_ ?_
  · intro k
    show V c main_arg0 (((cfg0.win 0).blk t).view.emb (ix2 p k)) = V c main_arg0 (ix2 ((((cfg0.win 3).blk t).view.emb (ix2 p q)) 0) k)
    refine congrArg (V c main_arg0) (funext fun a => Fin.ext ?_)
    match a with
    | ⟨0, _⟩ => show win0_0.index t (0 : Fin 2) * 2000 + 1 * p.val = win0_3.index t (0 : Fin 2) * 2000 + 1 * p.val; omega
    | ⟨1, _⟩ => show win0_0.index t (1 : Fin 2) * 1433 + 1 * k.val = k.val; omega
  · intro k
    show V c main_arg1 (((cfg0.win 1).blk t).view.emb (ix2 k q)) = V c main_arg1 (ix2 k ((((cfg0.win 3).blk t).view.emb (ix2 p q)) 1))
    refine congrArg (V c main_arg1) (funext fun a => Fin.ext ?_)
    match a with
    | ⟨0, _⟩ => show win0_1.index t (0 : Fin 2) * 1433 + 1 * k.val = k.val; omega
    | ⟨1, _⟩ => show win0_1.index t (1 : Fin 2) * 16 + 1 * q.val = win0_3.index t (1 : Fin 2) * 16 + 1 * q.val; omega
  · show V c main_v8 (((cfg0.win 2).blk t).view.emb (ix2 (0 : Fin 1) q)) = V c main_v8 (ix2 (0 : Fin 1) ((((cfg0.win 3).blk t).view.emb (ix2 p q)) 1))
    refine congrArg (V c main_v8) (funext fun a => Fin.ext ?_)
    match a with
    | ⟨0, _⟩ => show win0_2.index t (0 : Fin 2) * 1 + 1 * 0 = 0; omega
    | ⟨1, _⟩ => show win0_2.index t (1 : Fin 2) * 16 + 1 * q.val = win0_3.index t (1 : Fin 2) * 16 + 1 * q.val; omega

/-- An index of the result is in point t's block iff each coordinate is in the block's range on its axis. -/
theorem mem_blk0 (t : Fin cfg0.N) (i : S100000x16.Idx) :
    i ∈ ((cfg0.win 3).blk t).view.set ↔ ∀ a : Fin 2, win0_3.index t a * S2000x16.size a ≤ (i a).val ∧ (i a).val < win0_3.index t a * S2000x16.size a + S2000x16.size a := by
  show i ∈ ((View.whole main_v9).slice (win0_3.rect t)).set ↔ _
  rw [View.set_slice_whole, Rect.mem_set_unit]
  exact Iff.rfl

/-- Row r of the result is written at point r / 2000. -/
theorem cover0 (i : S100000x16.Idx) : ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 50 := N_0
  let t : Fin cfg0.N := ⟨(i 0).val / 2000, by rw [hN]; omega⟩
  obtain ⟨e0, e1, e2, e3, e4, e5, e6, e7⟩ := idx_facts0 t
  have ht : t.val = (i 0).val / 2000 := rfl
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 16 ≤ (i 1).val ∧ (i 1).val < win0_3.index t (1 : Fin 2) * 16 + 16; omega

/-- THE FIRST CALL'S RESULT ARRAY: the dense layer of the arrays the region found. -/
theorem final0 (c : Dev nD) :
    (dat0 V c).arrAt 3 cfg0.N = affLayer (R := 100000) (K := 1433) (N := 16) (V c main_arg0) (V c main_arg1) (V c main_v8) :=
  (dat0 V c).arrAt_eq_of_cover 3 _ (fun t _ => flushed0 V c t) cover0

/-! ## The second call -/

/-- The same for the second call: the node tile and the result tile are at block row t, every other block
    index is 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the whole layer of the arrays the region found. -/
theorem flushed1 (c : Dev nD) (t : Fin cfg1.N) :
    (dat1 V c).flushed 3 t = ((cfg1.win 3).blk t).view.read (Elt Ideal)
      (affLayer (R := 100000) (K := 16) (N := 7) (V c main_v44) (V c main_arg3) (V c main_v45)) := by
  show (cfg1.win 3).cut (grid1.coords t) ((dat1 V c).after 3 t) = _
  rw [after1_3]
  unfold out1_3
  rw [View.canon_unit_zero hz]
  simp only [View.ld_unit_zero (S := S2000x16) hz, View.ld_unit_zero (S := S16x7) hz, View.ld_unit_zero (S := S1x7) hz]
  obtain ⟨e0, e1, e2, e3, e4, e5, e6, e7⟩ := idx_facts1 t
  funext j
  obtain ⟨p, q, rfl⟩ : ∃ (p : Fin 2000) (q : Fin 7), j = ix2 p q := ⟨j 0, j 1, eq_ix2 j⟩
  show k1_pay1 (iblk1 V c 0 t) (iblk1 V c 1 t) (iblk1 V c 2 t) (ix2 p q)
    = affLayer (R := 100000) (K := 16) (N := 7) (V c main_v44) (V c main_arg3) (V c main_v45) (((cfg1.win 3).blk t).view.emb (ix2 p q))
  refine tile1_at (V c main_v44) (V c main_arg3) (V c main_v45) (iblk1 V c 0 t) (iblk1 V c 1 t) (iblk1 V c 2 t) p q
    (((cfg1.win 3).blk t).view.emb (ix2 p q)) ?_ ?_ ?_
  · intro k
    show V c main_v44 (((cfg1.win 0).blk t).view.emb (ix2 p k)) = V c main_v44 (ix2 ((((cfg1.win 3).blk t).view.emb (ix2 p q)) 0) k)
    refine congrArg (V c main_v44) (funext fun a => Fin.ext ?_)
    match a with
    | ⟨0, _⟩ => show win1_0.index t (0 : Fin 2) * 2000 + 1 * p.val = win1_3.index t (0 : Fin 2) * 2000 + 1 * p.val; omega
    | ⟨1, _⟩ => show win1_0.index t (1 : Fin 2) * 16 + 1 * k.val = k.val; omega
  · intro k
    show V c main_arg3 (((cfg1.win 1).blk t).view.emb (ix2 k q)) = V c main_arg3 (ix2 k ((((cfg1.win 3).blk t).view.emb (ix2 p q)) 1))
    refine congrArg (V c main_arg3) (funext fun a => Fin.ext ?_)
    match a with
    | ⟨0, _⟩ => show win1_1.index t (0 : Fin 2) * 16 + 1 * k.val = k.val; omega
    | ⟨1, _⟩ => show win1_1.index t (1 : Fin 2) * 7 + 1 * q.val = win1_3.index t (1 : Fin 2) * 7 + 1 * q.val; omega
  · show V c main_v45 (((cfg1.win 2).blk t).view.emb (ix2 (0 : Fin 1) q)) = V c main_v45 (ix2 (0 : Fin 1) ((((cfg1.win 3).blk t).view.emb (ix2 p q)) 1))
    refine congrArg (V c main_v45) (funext fun a => Fin.ext ?_)
    match a with
    | ⟨0, _⟩ => show win1_2.index t (0 : Fin 2) * 1 + 1 * 0 = 0; omega
    | ⟨1, _⟩ => show win1_2.index t (1 : Fin 2) * 7 + 1 * q.val = win1_3.index t (1 : Fin 2) * 7 + 1 * q.val; omega

/-- An index of the result is in point t's block iff each coordinate is in the block's range on its axis. -/
theorem mem_blk1 (t : Fin cfg1.N) (i : S100000x7.Idx) :
    i ∈ ((cfg1.win 3).blk t).view.set ↔ ∀ a : Fin 2, win1_3.index t a * S2000x7.size a ≤ (i a).val ∧ (i a).val < win1_3.index t a * S2000x7.size a + S2000x7.size a := by
  show i ∈ ((View.whole main_v46).slice (win1_3.rect t)).set ↔ _
  rw [View.set_slice_whole, Rect.mem_set_unit]
  exact Iff.rfl

/-- Row r of the result is written at point r / 2000. -/
theorem cover1 (i : S100000x7.Idx) : ∃ t : Fin cfg1.N, (cfg1.win 3).flush t = true ∧ i ∈ ((cfg1.win 3).blk t).view.set := by
  have hi0 : (i 0).val < 100000 := (i 0).isLt
  have hi1 : (i 1).val < 7 := (i 1).isLt
  have hN : cfg1.N = 50 := N_1
  let t : Fin cfg1.N := ⟨(i 0).val / 2000, by rw [hN]; omega⟩
  obtain ⟨e0, e1, e2, e3, e4, e5, e6, e7⟩ := idx_facts1 t
  have ht : t.val = (i 0).val / 2000 := rfl
  refine ⟨t, flush1_3 t, ?_⟩
  rw [mem_blk1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 7 ≤ (i 1).val ∧ (i 1).val < win1_3.index t (1 : Fin 2) * 7 + 7; omega

/-- THE SECOND CALL'S RESULT ARRAY: the dense layer of the arrays the region found. -/
theorem final1 (c : Dev nD) :
    (dat1 V c).arrAt 3 cfg1.N = affLayer (R := 100000) (K := 16) (N := 7) (V c main_v44) (V c main_arg3) (V c main_v45) :=
  (dat1 V c).arrAt_eq_of_cover 3 _ (fun t _ => flushed1 V c t) cover1

end Cert.KernelIdeal.Tiles

end
-- ==== Proof.GcnSpec.lean ====
/-
  The graph-convolution network both programs compute, as ONE function of the six argument arrays on the extended reals.

  Nodes 0 … 99999, an edge list e : [2, 3200000] (row 0 the source of each edge, row 1 its target), every node given a
  self loop, so 3300000 edges in all.  With  deg(n) = the number of edges whose target is n,  dinv = deg^(-1/2)  and
  norm(k) = dinv(source k) · dinv(target k),  one layer sends a node matrix h to
      agg(h)(n, ·) = Σ over the edges k with target n of  norm(k) · h(source k, ·),
  and the network is   log_softmax( relu( agg( relu( agg( x·W1 + b1 ) )·W2 + b2 ) ) )   along the classes.

  Everything but the two dense layers x·W + b is spelt here exactly as both programs spell it, as host operations
  (iota, broadcasts, a concatenation, slices, scatters with an adding body, gathers, a power, reductions); the dense
  layer is the whole-matrix function `affLayer` (entry (r, g) = Σₖ x(r,k)·W(k,g) + b(0,g)), of which the kernel's tiles
  are restrictions and which the reference's dot_general plus broadcast bias equals.
-/
import proofs.«176563_j3332894622171_1_alg».proof.Proof.Gen.KernelIdeal
import proofs.«176563_j3332894622171_1_alg».proof.Proof.LibDenseLayers

noncomputable section

namespace Cert.Gcn

open Idealize.ShloMosaic Cert.KernelIdeal Cert.KernelIdeal.Facts₀ Cert.KernelIdeal.Facts Cert.SageLayers

/-- A float array of a shape, on the extended reals. -/
abbrev FArr (s : Shape) : Type := FVec Ideal s .f32
/-- A 32-bit integer array of a shape. -/
abbrev IArr (s : Shape) : Type := IVec s 32

/-- The edge list with one self loop per node appended: [2, 3300000]. -/
def edgeList (e : IArr S2x3200000) : IArr S2x3300000 :=
  concatenate S2x3300000 1 [⟨S2x3200000, e⟩, ⟨S2x100000, (broadcastInDim S2x100000 ![0, 1] bcast_S1x100000_S2x100000_0_1 (broadcastInDim S1x100000 ![1] bcast_S100000_S1x100000_1 (iotaInDim S100000 32 0)))⟩] concatenates_S2x3200000_S2x100000_S2x3300000_d1

/-- The source node of every edge (row 0 of the edge list). -/
def srcOf (e : IArr S2x3200000) : IArr S3300000 :=
  shapeCast S3300000 (extractStridedSlice S1x3300000 ![0, 0] (edgeList e) slices_S2x3300000_S1x3300000_0_0) shapeCasts_S1x3300000_S3300000

/-- The target node of every edge (row 1 of the edge list). -/
def dstOf (e : IArr S2x3200000) : IArr S3300000 :=
  shapeCast S3300000 (extractStridedSlice S1x3300000 ![1, 0] (edgeList e) slices_S2x3300000_S1x3300000_1_0) shapeCasts_S1x3300000_S3300000

/-- A node index made non-negative the way jnp indexing does: i + 100000 where i < 0. -/
def wrapIdx (i : IArr S3300000) : IArr S3300000 :=
  select (cmpi .slt i (broadcastInDim S3300000 ![] bcast_S_S3300000 (constantI S_ 32 0#32))) (addi i (broadcastInDim S3300000 ![] bcast_S_S3300000 (constantI S_ 32 100000#32))) i

/-- An index vector as the [E, 1] column a scatter or gather takes. -/
def idxCol (i : IArr S3300000) : IArr S3300000x1 :=
  broadcastInDim S3300000x1 ![0] bcast_S3300000_S3300000x1_0 i

/-- deg^(-1/2): the number of edges into each node, to the power -1/2. -/
def degInv (dst : IArr S3300000) : FArr S100000 :=
  Host.powf (F := Ideal) (Host.scatterAdd (F := Ideal) scatter_S100000_S3300000x1_S3300000_n_0_0_1 (broadcastInDim S100000 ![] bcast_S_S100000 (constant (F := Ideal) S_ .f32 0x00000000#32)) (idxCol dst) (broadcastInDim S3300000 ![] bcast_S_S3300000 (constant (F := Ideal) S_ .f32 0x3F800000#32))) (broadcastInDim S100000 ![] bcast_S_S100000 (constant (F := Ideal) S_ .f32 0xBF000000#32))

/-- The weight of every edge: dinv(source) · dinv(target). -/
def edgeNorm (src dst : IArr S3300000) : FArr S3300000 :=
  mulf (Host.gather gather_S100000_S3300000x1_S3300000_n_0_n_n_0_1_1 (degInv dst) (idxCol (wrapIdx src))) (Host.gather gather_S100000_S3300000x1_S3300000_n_0_n_n_0_1_1 (degInv dst) (idxCol (wrapIdx dst)))

/-- The edge weights as an [E, 1] column. -/
def normCol (src dst : IArr S3300000) : FArr S3300000x1 :=
  broadcastInDim S3300000x1 ![0] bcast_S3300000_S3300000x1_0 (edgeNorm src dst)

/-- One aggregation of a 16-column node matrix: each node sums the weighted rows of its in-neighbours. -/
def agg16 (h : FArr S100000x16) (src dst : IArr S3300000) : FArr S100000x16 :=
  Host.scatterAdd (F := Ideal) scatter_S100000x16_S3300000x1_S3300000x16_1_0_0_1 (broadcastInDim S100000x16 ![] bcast_S_S100000x16 (constant (F := Ideal) S_ .f32 0x00000000#32)) (idxCol dst) (mulf (broadcastInDim S3300000x16 ![0, 1] bcast_S3300000x1_S3300000x16_0_1 (normCol src dst)) (Host.gather gather_S100000x16_S3300000x1_S3300000x16_1_0_n_n_0_1_116 h (idxCol (wrapIdx src))))

/-- The same for a 7-column node matrix. -/
def agg7 (h : FArr S100000x7) (src dst : IArr S3300000) : FArr S100000x7 :=
  Host.scatterAdd (F := Ideal) scatter_S100000x7_S3300000x1_S3300000x7_1_0_0_1 (broadcastInDim S100000x7 ![] bcast_S_S100000x7 (constant (F := Ideal) S_ .f32 0x00000000#32)) (idxCol dst) (mulf (broadcastInDim S3300000x7 ![0, 1] bcast_S3300000x1_S3300000x7_0_1 (normCol src dst)) (Host.gather gather_S100000x7_S3300000x1_S3300000x7_1_0_n_n_0_1_17 h (idxCol (wrapIdx src))))

/-- max(·, 0), entry by entry, on 16 columns. -/
def relu16 (x : FArr S100000x16) : FArr S100000x16 :=
  maximumf x (broadcastInDim S100000x16 ![] bcast_S_S100000x16 (constant (F := Ideal) S_ .f32 0x00000000#32))

/-- max(·, 0), entry by entry, on 7 columns. -/
def relu7 (x : FArr S100000x7) : FArr S100000x7 :=
  maximumf x (broadcastInDim S100000x7 ![] bcast_S_S100000x7 (constant (F := Ideal) S_ .f32 0x00000000#32))

/-- Each row's maximum (from -∞, and once more against -∞ as jax spells it). -/
def rowMax (x : FArr S100000x7) : FArr S100000 :=
  maximumf (broadcastInDim S100000 ![] bcast_S_S100000 (constant (F := Ideal) S_ .f32 0xFF800000#32)) (Host.reduce FloatOps.maximumf x (constant (F := Ideal) S_ .f32 0xFF800000#32) reducesTo_S100000x7_S100000_d1 h_S_)

/-- Each row minus its maximum. -/
def shifted (x : FArr S100000x7) : FArr S100000x7 :=
  subf x (broadcastInDim S100000x7 ![0, 1] bcast_S100000x1_S100000x7_0_1 (broadcastInDim S100000x1 ![0] bcast_S100000_S100000x1_0 (rowMax x)))

/-- log_softmax along the classes: the shifted row minus the log of the sum of its exponentials. -/
def logSoftmax (x : FArr S100000x7) : FArr S100000x7 :=
  subf (shifted x) (broadcastInDim S100000x7 ![0, 1] bcast_S100000x1_S100000x7_0_1 (Host.log (F := Ideal) (broadcastInDim S100000x1 ![0] bcast_S100000_S100000x1_0 (Host.reduceAdd (F := Ideal) (Host.exp (F := Ideal) (shifted x)) (constant (F := Ideal) S_ .f32 0x00000000#32) reducesTo_S100000x7_S100000_d1 h_S_))))

/-- A bias vector as the [1, N] row the dense layer adds to every node. -/
def biasRow16 (b : FArr S16) : FArr S1x16 := shapeCast S1x16 b shapeCasts_S16_S1x16
def biasRow7 (b : FArr S7) : FArr S1x7 := shapeCast S1x7 b shapeCasts_S7_S1x7

/-- The first layer's rectified result. -/
def hidden (x : FArr S100000x1433) (W1 : FArr S1433x16) (b1 : FArr S16) (e : IArr S2x3200000) : FArr S100000x16 :=
  relu16 (agg16 (affLayer (R := 100000) (K := 1433) (N := 16) x W1 (biasRow16 b1)) (srcOf e) (dstOf e))

/-- The network. -/
def gcn (x : FArr S100000x1433) (W1 : FArr S1433x16) (b1 : FArr S16) (W2 : FArr S16x7) (b2 : FArr S7) (e : IArr S2x3200000) : FArr S100000x7 :=
  logSoftmax (relu7 (agg7 (affLayer (R := 100000) (K := 16) (N := 7) (hidden x W1 b1 e) W2 (biasRow7 b2)) (srcOf e) (dstOf e)))

end Cert.Gcn

end
-- ==== Proof.LibTypedRef.lean ====
/-
  A typed reference to a buffer (the handle an outlined function's operations use) moves contents between the value's
  type and the buffer's type along the equation of the two. Moving contents to the buffer's type and back gives them
  back unchanged, whatever the reference.
-/
import Idealize.ShloMosaic.Lib.StableHlo

namespace Cert.LibTypedRef

open Idealize.ShloMosaic Idealize.ShloMosaic.StableHlo

/-- Contents moved to a typed reference's buffer type and back are unchanged. -/
theorem ofBuf_toBuf {sig : RefSig} {T : BufTy} {Val : EltTy → Type} (x : TRef sig T) (v : T.Contents Val) :
    x.ofBuf (x.toBuf v) = v := by
  obtain ⟨ref, ty_eq, h1, h2⟩ := x
  subst ty_eq
  rfl

end Cert.LibTypedRef
-- ==== Proof.LibAfterRw.lean ====
/-
  Reading a straight line of host operations at one buffer: a closing pass.  An operation's result at the buffer it
  writes is its function's value, and at any other buffer what was there.  Rewriting with these two facts, one operation
  and one reference at a time (the two references compared by computation), reaches every place — in particular the
  operands of a concatenation, which sit in a list of shape–array pairs where a single simplification pass leaves the
  operations' results standing.  `after_results_rw` repeats the rewriting until no operation's result is left; it does
  nothing when none is there.
-/
import Idealize.ShloMosaic.Lib.StableHlo.Run

/-- Rewrites every remaining `HloOp.result` of a literal operation at a literal reference, until none is left. -/
macro "after_results_rw" : tactic =>
  `(tactic| (repeat (first
      | rw [Idealize.ShloMosaic.StableHlo.nullary_result] | rw [Idealize.ShloMosaic.StableHlo.unary_result] | rw [Idealize.ShloMosaic.StableHlo.binary_result] | rw [Idealize.ShloMosaic.StableHlo.ternary_result]
      | rw [Idealize.ShloMosaic.StableHlo.reshape_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide))))
-- ==== Proof.KernelChain.lean ====
/-
  The kernel program's result buffer, followed back through @main to the launch memory.

  @main is: host operations (the edge list's two rows; the first bias as a row) — the first pipelined dense layer — host
  operations (degrees, edge weights, the aggregation, the rectifier; the second bias as a row) — the second pipelined
  dense layer — host operations (the aggregation again, the rectifier, the log-softmax).  Each stretch of host operations
  is read as the value one buffer holds after it in terms of what a few buffers held before it; each pipelined call
  leaves its result array at the whole-matrix layer of the arrays it found (KernelTiles) and every other buffer as it
  was.  Composed, the result buffer ends at `Cert.Gcn.gcn` of the six argument arrays.
-/
import proofs.«176563_j3332894622171_1_alg».proof.Proof.KernelTiles
import proofs.«176563_j3332894622171_1_alg».proof.Proof.GcnSpec
import proofs.«176563_j3332894622171_1_alg».proof.Proof.LibTypedRef
import proofs.«176563_j3332894622171_1_alg».proof.Proof.LibAfterRw

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
  Cert.SageLayers Cert.LibTypedRef

/-! ## The stretches of host operations, from any contents -/

section Stretches

variable (V : Valuation τ sig (Elt Ideal))

/-! ### Before the first call: the edge list's rows, the first bias as a row -/

theorem pre_v5 : after (hostOps0 (F := Ideal)) V (Proc.devRef .tc main_v5) = Cert.Gcn.srcOf (V (Proc.devRef .tc main_arg5)) := by
  dsimp only [hostOps0]; after_results_simp; after_results_rw; rfl
theorem pre_v7 : after (hostOps0 (F := Ideal)) V (Proc.devRef .tc main_v7) = Cert.Gcn.dstOf (V (Proc.devRef .tc main_arg5)) := by
  dsimp only [hostOps0]; after_results_simp; after_results_rw; rfl
theorem pre_v8 : after (hostOps0 (F := Ideal)) V (Proc.devRef .tc main_v8) = Cert.Gcn.biasRow16 (V (Proc.devRef .tc main_arg2)) := by
  dsimp only [hostOps0]; after_results_simp; after_results_rw; rfl
theorem pre_arg0 : after (hostOps0 (F := Ideal)) V (Proc.devRef .tc main_arg0) = V (Proc.devRef .tc main_arg0) := by
  dsimp only [hostOps0]; after_results_simp
theorem pre_arg1 : after (hostOps0 (F := Ideal)) V (Proc.devRef .tc main_arg1) = V (Proc.devRef .tc main_arg1) := by
  dsimp only [hostOps0]; after_results_simp
theorem pre_arg3 : after (hostOps0 (F := Ideal)) V (Proc.devRef .tc main_arg3) = V (Proc.devRef .tc main_arg3) := by
  dsimp only [hostOps0]; after_results_simp
theorem pre_arg4 : after (hostOps0 (F := Ideal)) V (Proc.devRef .tc main_arg4) = V (Proc.devRef .tc main_arg4) := by
  dsimp only [hostOps0]; after_results_simp

/-! ### Between the calls: the aggregation, the rectifier (a called function), the second bias as a row -/

set_option maxHeartbeats 2000000 in
/-- The aggregation of the first call's result. -/
theorem agg_v43 : after (hostOps1 (F := Ideal)) V (Proc.devRef .tc main_v43)
    = Cert.Gcn.agg16 (V (Proc.devRef .tc main_v9)) (V (Proc.devRef .tc main_v5)) (V (Proc.devRef .tc main_v7)) := by
  dsimp only [hostOps1]; after_results_simp
  unfold Cert.Gcn.agg16 Cert.Gcn.normCol Cert.Gcn.edgeNorm Cert.Gcn.degInv Cert.Gcn.idxCol Cert.Gcn.wrapIdx
  rfl
theorem agg_arg3 : after (hostOps1 (F := Ideal)) V (Proc.devRef .tc main_arg3) = V (Proc.devRef .tc main_arg3) := by
  dsimp only [hostOps1]; after_results_simp
theorem agg_arg4 : after (hostOps1 (F := Ideal)) V (Proc.devRef .tc main_arg4) = V (Proc.devRef .tc main_arg4) := by
  dsimp only [hostOps1]; after_results_simp
theorem agg_v5 : after (hostOps1 (F := Ideal)) V (Proc.devRef .tc main_v5) = V (Proc.devRef .tc main_v5) := by
  dsimp only [hostOps1]; after_results_simp
theorem agg_v7 : after (hostOps1 (F := Ideal)) V (Proc.devRef .tc main_v7) = V (Proc.devRef .tc main_v7) := by
  dsimp only [hostOps1]; after_results_simp

/-- The rectifier. -/
theorem relu_v44 : after (hostOps1_1 (F := Ideal)) V (Proc.devRef .tc main_v44) = Cert.Gcn.relu16 (V (Proc.devRef .tc main_v43)) := by
  dsimp only [hostOps1_1]; after_results_simp
  try simp only [ofBuf_toBuf]
  rfl
theorem relu_arg3 : after (hostOps1_1 (F := Ideal)) V (Proc.devRef .tc main_arg3) = V (Proc.devRef .tc main_arg3) := by
  dsimp only [hostOps1_1]; after_results_simp
theorem relu_arg4 : after (hostOps1_1 (F := Ideal)) V (Proc.devRef .tc main_arg4) = V (Proc.devRef .tc main_arg4) := by
  dsimp only [hostOps1_1]; after_results_simp
theorem relu_v5 : after (hostOps1_1 (F := Ideal)) V (Proc.devRef .tc main_v5) = V (Proc.devRef .tc main_v5) := by
  dsimp only [hostOps1_1]; after_results_simp
theorem relu_v7 : after (hostOps1_1 (F := Ideal)) V (Proc.devRef .tc main_v7) = V (Proc.devRef .tc main_v7) := by
  dsimp only [hostOps1_1]; after_results_simp

theorem row_v45 : after (hostOps1_2 (F := Ideal)) V (Proc.devRef .tc main_v45) = Cert.Gcn.biasRow7 (V (Proc.devRef .tc main_arg4)) := by
  dsimp only [hostOps1_2]; after_results_simp; after_results_rw; rfl
theorem row_v44 : after (hostOps1_2 (F := Ideal)) V (Proc.devRef .tc main_v44) = V (Proc.devRef .tc main_v44) := by
  dsimp only [hostOps1_2]; after_results_simp
theorem row_arg3 : after (hostOps1_2 (F := Ideal)) V (Proc.devRef .tc main_arg3) = V (Proc.devRef .tc main_arg3) := by
  dsimp only [hostOps1_2]; after_results_simp
theorem row_v5 : after (hostOps1_2 (F := Ideal)) V (Proc.devRef .tc main_v5) = V (Proc.devRef .tc main_v5) := by
  dsimp only [hostOps1_2]; after_results_simp
theorem row_v7 : after (hostOps1_2 (F := Ideal)) V (Proc.devRef .tc main_v7) = V (Proc.devRef .tc main_v7) := by
  dsimp only [hostOps1_2]; after_results_simp

/-! ### After the second call: the aggregation, the rectifier, the log-softmax (two called functions) -/

set_option maxHeartbeats 2000000 in
theorem agg_v80 : after (hostOps2 (F := Ideal)) V (Proc.devRef .tc main_v80)
    = Cert.Gcn.agg7 (V (Proc.devRef .tc main_v46)) (V (Proc.devRef .tc main_v5)) (V (Proc.devRef .tc main_v7)) := by
  dsimp only [hostOps2]; after_results_simp
  unfold Cert.Gcn.agg7 Cert.Gcn.normCol Cert.Gcn.edgeNorm Cert.Gcn.degInv Cert.Gcn.idxCol Cert.Gcn.wrapIdx
  rfl

theorem relu_v81 : after (hostOps2_1 (F := Ideal)) V (Proc.devRef .tc main_v81) = Cert.Gcn.relu7 (V (Proc.devRef .tc main_v80)) := by
  dsimp only [hostOps2_1]; after_results_simp
  try simp only [ofBuf_toBuf]
  rfl

set_option maxHeartbeats 2000000 in
theorem lsm_v82 : after (hostOps2_2 (F := Ideal)) V (Proc.devRef .tc main_v82) = Cert.Gcn.logSoftmax (V (Proc.devRef .tc main_v81)) := by
  dsimp only [hostOps2_2]; after_results_simp
  try simp only [ofBuf_toBuf]
  rfl

end Stretches

/-! ## The chain, from the launch memory -/

variable (m : (ℓ : Loc nD τ sig) → Buf (Elt Ideal) ℓ) (ρ : Dev nD → PrngReg) (c : Dev nD)

theorem W1_v5 : W1 m ρ c (Proc.devRef .tc main_v5) = Cert.Gcn.srcOf (m ((c : Thread nD τ).loc main_arg5)) := pre_v5 (W0 m ρ c)
theorem W1_v7 : W1 m ρ c (Proc.devRef .tc main_v7) = Cert.Gcn.dstOf (m ((c : Thread nD τ).loc main_arg5)) := pre_v7 (W0 m ρ c)
theorem W1_v8 : W1 m ρ c (Proc.devRef .tc main_v8) = Cert.Gcn.biasRow16 (m ((c : Thread nD τ).loc main_arg2)) := pre_v8 (W0 m ρ c)
theorem W1_arg0 : W1 m ρ c (Proc.devRef .tc main_arg0) = (m ((c : Thread nD τ).loc main_arg0)) := pre_arg0 (W0 m ρ c)
theorem W1_arg1 : W1 m ρ c (Proc.devRef .tc main_arg1) = (m ((c : Thread nD τ).loc main_arg1)) := pre_arg1 (W0 m ρ c)
theorem W1_arg3 : W1 m ρ c (Proc.devRef .tc main_arg3) = (m ((c : Thread nD τ).loc main_arg3)) := pre_arg3 (W0 m ρ c)
theorem W1_arg4 : W1 m ρ c (Proc.devRef .tc main_arg4) = (m ((c : Thread nD τ).loc main_arg4)) := pre_arg4 (W0 m ρ c)

/-- The first call's result array: x·W1 + b1 as a whole matrix. -/
theorem W2_v9 : W2 m ρ c (Proc.devRef .tc main_v9)
    = affLayer (R := 100000) (K := 1433) (N := 16) (m ((c : Thread nD τ).loc main_arg0)) (m ((c : Thread nD τ).loc main_arg1)) (Cert.Gcn.biasRow16 (m ((c : Thread nD τ).loc main_arg2))) := by
  refine ((W2_arr m ρ c 3).trans (Tiles.final0 (V1 m ρ) c)).trans ?_
  show affLayer (R := 100000) (K := 1433) (N := 16) (W1 m ρ c (Proc.devRef .tc main_arg0)) (W1 m ρ c (Proc.devRef .tc main_arg1)) (W1 m ρ c (Proc.devRef .tc main_v8)) = _
  rw [W1_arg0, W1_arg1, W1_v8]

theorem W2_v5 : W2 m ρ c (Proc.devRef .tc main_v5) = Cert.Gcn.srcOf (m ((c : Thread nD τ).loc main_arg5)) :=
  (W2_of_ne m ρ c main_v5 (by decide)).trans (W1_v5 m ρ c)
theorem W2_v7 : W2 m ρ c (Proc.devRef .tc main_v7) = Cert.Gcn.dstOf (m ((c : Thread nD τ).loc main_arg5)) :=
  (W2_of_ne m ρ c main_v7 (by decide)).trans (W1_v7 m ρ c)
theorem W2_arg3 : W2 m ρ c (Proc.devRef .tc main_arg3) = (m ((c : Thread nD τ).loc main_arg3)) :=
  (W2_of_ne m ρ c main_arg3 (by decide)).trans (W1_arg3 m ρ c)
theorem W2_arg4 : W2 m ρ c (Proc.devRef .tc main_arg4) = (m ((c : Thread nD τ).loc main_arg4)) :=
  (W2_of_ne m ρ c main_arg4 (by decide)).trans (W1_arg4 m ρ c)

/-- The first layer's rectified result, as the second call finds it. -/
theorem W5_v44 : W5 m ρ c (Proc.devRef .tc main_v44) = (Cert.Gcn.hidden (m ((c : Thread nD τ).loc main_arg0)) (m ((c : Thread nD τ).loc main_arg1)) (m ((c : Thread nD τ).loc main_arg2)) (m ((c : Thread nD τ).loc main_arg5))) := by
  refine (row_v44 (W4 m ρ c)).trans ((relu_v44 (W3 m ρ c)).trans ?_)
  show Cert.Gcn.relu16 (after (hostOps1 (F := Ideal)) (W2 m ρ c) (Proc.devRef .tc main_v43)) = _
  rw [agg_v43, W2_v9, W2_v5, W2_v7]
  rfl
theorem W5_v45 : W5 m ρ c (Proc.devRef .tc main_v45) = Cert.Gcn.biasRow7 (m ((c : Thread nD τ).loc main_arg4)) :=
  (row_v45 (W4 m ρ c)).trans (congrArg Cert.Gcn.biasRow7 ((relu_arg4 (W3 m ρ c)).trans ((agg_arg4 (W2 m ρ c)).trans (W2_arg4 m ρ c))))
theorem W5_arg3 : W5 m ρ c (Proc.devRef .tc main_arg3) = (m ((c : Thread nD τ).loc main_arg3)) :=
  (row_arg3 (W4 m ρ c)).trans ((relu_arg3 (W3 m ρ c)).trans ((agg_arg3 (W2 m ρ c)).trans (W2_arg3 m ρ c)))
theorem W5_v5 : W5 m ρ c (Proc.devRef .tc main_v5) = Cert.Gcn.srcOf (m ((c : Thread nD τ).loc main_arg5)) :=
  (row_v5 (W4 m ρ c)).trans ((relu_v5 (W3 m ρ c)).trans ((agg_v5 (W2 m ρ c)).trans (W2_v5 m ρ c)))
theorem W5_v7 : W5 m ρ c (Proc.devRef .tc main_v7) = Cert.Gcn.dstOf (m ((c : Thread nD τ).loc main_arg5)) :=
  (row_v7 (W4 m ρ c)).trans ((relu_v7 (W3 m ρ c)).trans ((agg_v7 (W2 m ρ c)).trans (W2_v7 m ρ c)))

/-- The second call's result array: h·W2 + b2 as a whole matrix. -/
theorem W6_v46 : W6 m ρ c (Proc.devRef .tc main_v46)
    = affLayer (R := 100000) (K := 16) (N := 7) (Cert.Gcn.hidden (m ((c : Thread nD τ).loc main_arg0)) (m ((c : Thread nD τ).loc main_arg1)) (m ((c : Thread nD τ).loc main_arg2)) (m ((c : Thread nD τ).loc main_arg5))) (m ((c : Thread nD τ).loc main_arg3)) (Cert.Gcn.biasRow7 (m ((c : Thread nD τ).loc main_arg4))) := by
  refine ((W6_arr m ρ c 3).trans (Tiles.final1 (V5 m ρ) c)).trans ?_
  show affLayer (R := 100000) (K := 16) (N := 7) (W5 m ρ c (Proc.devRef .tc main_v44)) (W5 m ρ c (Proc.devRef .tc main_arg3)) (W5 m ρ c (Proc.devRef .tc main_v45)) = _
  rw [W5_v44, W5_arg3, W5_v45]

theorem W6_v5 : W6 m ρ c (Proc.devRef .tc main_v5) = Cert.Gcn.srcOf (m ((c : Thread nD τ).loc main_arg5)) :=
  (W6_of_ne m ρ c main_v5 (by decide)).trans (W5_v5 m ρ c)
theorem W6_v7 : W6 m ρ c (Proc.devRef .tc main_v7) = Cert.Gcn.dstOf (m ((c : Thread nD τ).loc main_arg5)) :=
  (W6_of_ne m ρ c main_v7 (by decide)).trans (W5_v7 m ρ c)

/-- THE RESULT BUFFER at the end of @main: the network of the six argument arrays. -/
theorem result_eq : W9 m ρ c (Proc.devRef .tc main_v82) = Cert.Gcn.gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (lsm_v82 (W8 m ρ c)).trans ?_
  show Cert.Gcn.logSoftmax (after (hostOps2_1 (F := Ideal)) (W7 m ρ c) (Proc.devRef .tc main_v81)) = _
  rw [relu_v81]
  show Cert.Gcn.logSoftmax (Cert.Gcn.relu7 (after (hostOps2 (F := Ideal)) (W6 m ρ c) (Proc.devRef .tc main_v80))) = _
  rw [agg_v80, W6_v46, W6_v5, W6_v7]
  rfl

end Cert.KernelIdeal.Chain

end
-- ==== Proof.LibHostLayers.lean ====
/-
  The three layers as the host program spells them — a dot_general, the bias vector made a row and repeated down the
  rows by two broadcast_in_dims, a maximum against the zero matrix — are, as whole matrices on the extended reals, the
  layer functions the kernel's tiles are restrictions of (LibDenseLayers): `host_proj_eq` for max (x · W + b, 0),
  `host_sage_eq` for max ((a · Wl + b) + h · Wr, 0), `host_aff_eq` for x · W + b.  For any extents; the products over
  the plain dimension record, the axis maps and their values taken as hypotheses.
-/
import proofs.«176563_j3332894622171_1_alg».proof.Proof.LibDenseLayers

noncomputable section

open scoped BigOperators

namespace Cert.SageLayers

open Idealize.ShloMosaic Idealize.ShloMosaic.ValueIdx

variable {R K N : ℕ}

/-- max (x · W + b, 0) in the host's spelling. -/
theorem host_proj_eq (A : FVec Ideal ⟨2, ![R, K]⟩ .f32) (W : FVec Ideal ⟨2, ![K, N]⟩ .f32) (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (d0 : Fin (⟨0, ![]⟩ : Shape).rank → Fin (⟨2, ![R, N]⟩ : Shape).rank)
    (hb0 : (⟨0, ![]⟩ : Shape).BroadcastsInDim ⟨2, ![R, N]⟩ d0) :
    maximumf (addf (Host.dotGeneral (DotDims.plain R K N) none A W)
        (broadcastInDim ⟨2, ![R, N]⟩ d2 hb2 (broadcastInDim ⟨2, ![1, N]⟩ d1 hb1 b)))
      (broadcastInDim ⟨2, ![R, N]⟩ d0 hb0 (constant (F := Ideal) ⟨0, ![]⟩ .f32 0x00000000#32))
      = projLayer A W (broadcastInDim ⟨2, ![1, N]⟩ d1 hb1 b) := by
  funext i
  obtain ⟨r, g, rfl⟩ : ∃ (r : Fin R) (g : Fin N), i = ix2 r g := ⟨i 0, i 1, eq_ix2 i⟩
  rw [maximumf_apply, host_zero_at]
  exact congrArg (max · zeroF) (host_affine_at A W b d1 hd1 hb1 d2 hd20 hd21 hb2 r g)

/-- max ((a · Wl + b) + h · Wr, 0) in the host's spelling. -/
theorem host_sage_eq {K' : ℕ} (A : FVec Ideal ⟨2, ![R, K]⟩ .f32) (H : FVec Ideal ⟨2, ![R, K']⟩ .f32)
    (Wl : FVec Ideal ⟨2, ![K, N]⟩ .f32) (b : FVec Ideal ⟨1, ![N]⟩ .f32) (Wr : FVec Ideal ⟨2, ![K', N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (d0 : Fin (⟨0, ![]⟩ : Shape).rank → Fin (⟨2, ![R, N]⟩ : Shape).rank)
    (hb0 : (⟨0, ![]⟩ : Shape).BroadcastsInDim ⟨2, ![R, N]⟩ d0) :
    maximumf (addf (addf (Host.dotGeneral (DotDims.plain R K N) none A Wl)
          (broadcastInDim ⟨2, ![R, N]⟩ d2 hb2 (broadcastInDim ⟨2, ![1, N]⟩ d1 hb1 b)))
        (Host.dotGeneral (DotDims.plain R K' N) none H Wr))
      (broadcastInDim ⟨2, ![R, N]⟩ d0 hb0 (constant (F := Ideal) ⟨0, ![]⟩ .f32 0x00000000#32))
      = sageLayer A H Wl (broadcastInDim ⟨2, ![1, N]⟩ d1 hb1 b) Wr := by
  funext i
  obtain ⟨r, g, rfl⟩ : ∃ (r : Fin R) (g : Fin N), i = ix2 r g := ⟨i 0, i 1, eq_ix2 i⟩
  rw [maximumf_apply, host_zero_at, addf_apply]
  exact congrArg (max · zeroF)
    (congrArg₂ (· + ·) (host_affine_at A Wl b d1 hd1 hb1 d2 hd20 hd21 hb2 r g) (host_dot_at H Wr r g))

/-- x · W + b in the host's spelling. -/
theorem host_aff_eq (A : FVec Ideal ⟨2, ![R, K]⟩ .f32) (W : FVec Ideal ⟨2, ![K, N]⟩ .f32) (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2) :
    addf (Host.dotGeneral (DotDims.plain R K N) none A W)
        (broadcastInDim ⟨2, ![R, N]⟩ d2 hb2 (broadcastInDim ⟨2, ![1, N]⟩ d1 hb1 b))
      = affLayer A W (broadcastInDim ⟨2, ![1, N]⟩ d1 hb1 b) := by
  funext i
  obtain ⟨r, g, rfl⟩ : ∃ (r : Fin R) (g : Fin N), i = ix2 r g := ⟨i 0, i 1, eq_ix2 i⟩
  exact host_affine_at A W b d1 hd1 hb1 d2 hd20 hd21 hb2 r g

end Cert.SageLayers

end
-- ==== Proof.RefRun.lean ====
/-
  The reference program's run, read back: every weakly fair execution of its @main ends with the result buffer at
  `Cert.Gcn.gcn` of the six argument arrays, and the arguments as launched.

  @main is a straight line of 125 host operations.  It is read in six consecutive pieces, each as the value one buffer
  holds after the piece in terms of what a few buffers held before it:
    E  (operations 1–8)      the edge list with the self loops, and its two rows;
    A  (operations 9–56)     the first dense layer and its aggregation,  agg (x·W1 + b1);
    R  (operations 57–59)    the first rectifier;
    B  (operations 60–107)   the second dense layer and its aggregation,  agg (h·W2 + b2);
    S  (operations 108–110)  the second rectifier;
    L  (operations 111–125)  the log-softmax.
  The reference spells a dense layer as a dot_general plus the bias vector broadcast twice; on the extended reals that is
  the whole-matrix function `affLayer` at the bias kept as a [1, N] row (`hostAff16_eq`, `hostAff7_eq`).
-/
import proofs.«176563_j3332894622171_1_alg».proof.Proof.RefOps
import proofs.«176563_j3332894622171_1_alg».proof.Proof.GcnSpec
import proofs.«176563_j3332894622171_1_alg».proof.Proof.LibHostLayers
import proofs.«176563_j3332894622171_1_alg».proof.Proof.LibTypedRef
import proofs.«176563_j3332894622171_1_alg».proof.Proof.LibAfterRw

noncomputable section

namespace Cert.ReferenceIdeal.RefRun

open Cert.ReferenceIdeal Cert.ReferenceIdeal.Gen Cert.ReferenceIdeal.ValueP Idealize.ShloMosaic Idealize.ShloMosaic.TcCoe Idealize.SL.Sem
  Idealize.ShloMosaic.StableHlo

/-- Two lines of operations one after the other: the second starts from what the first leaves. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-! ## The dense layers in the reference's spelling -/

/-- x·W1 + b1 as the reference spells it. -/
def hostAff16 (x : Cert.Gcn.FArr S100000x1433) (w : Cert.Gcn.FArr S1433x16) (b : Cert.Gcn.FArr S16) : Cert.Gcn.FArr S100000x16 :=
  addf (Host.dotGeneral (F := Ideal) dot_S100000x1433_S1433x16_S100000x16_1_0_0_1_n_n none x w) (broadcastInDim S100000x16 ![0, 1] bcast_S1x16_S100000x16_0_1 (broadcastInDim S1x16 ![1] bcast_S16_S1x16_1 b))

/-- h·W2 + b2 as the reference spells it. -/
def hostAff7 (x : Cert.Gcn.FArr S100000x16) (w : Cert.Gcn.FArr S16x7) (b : Cert.Gcn.FArr S7) : Cert.Gcn.FArr S100000x7 :=
  addf (Host.dotGeneral (F := Ideal) dot_S100000x16_S16x7_S100000x7_1_0_0_1_n_n none x w) (broadcastInDim S100000x7 ![0, 1] bcast_S1x7_S100000x7_0_1 (broadcastInDim S1x7 ![1] bcast_S7_S1x7_1 b))

/-- The dot_general plus the twice-broadcast bias vector is the dense layer at the bias row. -/
theorem hostAff16_eq (x : Cert.Gcn.FArr S100000x1433) (w : Cert.Gcn.FArr S1433x16) (b : Cert.Gcn.FArr S16) :
    hostAff16 x w b = Cert.SageLayers.affLayer (R := 100000) (K := 1433) (N := 16) x w (Cert.Gcn.biasRow16 b) := by
  unfold hostAff16 Cert.Gcn.biasRow16
  rw [← Cert.SageLayers.row_of_vector (N := 16) b ![1] rfl bcast_S16_S1x16_1 Cert.KernelIdeal.Facts₀.shapeCasts_S16_S1x16]
  exact Cert.SageLayers.host_aff_eq (R := 100000) (K := 1433) (N := 16) x w b ![1] rfl bcast_S16_S1x16_1 ![0, 1] rfl rfl bcast_S1x16_S100000x16_0_1

theorem hostAff7_eq (x : Cert.Gcn.FArr S100000x16) (w : Cert.Gcn.FArr S16x7) (b : Cert.Gcn.FArr S7) :
    hostAff7 x w b = Cert.SageLayers.affLayer (R := 100000) (K := 16) (N := 7) x w (Cert.Gcn.biasRow7 b) := by
  unfold hostAff7 Cert.Gcn.biasRow7
  rw [← Cert.SageLayers.row_of_vector (N := 7) b ![1] rfl bcast_S7_S1x7_1 Cert.KernelIdeal.Facts₀.shapeCasts_S7_S1x7]
  exact Cert.SageLayers.host_aff_eq (R := 100000) (K := 16) (N := 7) x w b ![1] rfl bcast_S7_S1x7_1 ![0, 1] rfl rfl bcast_S1x7_S100000x7_0_1

/-! ## The pieces, from any contents -/

variable (V : Valuation τ sig (Elt Ideal))

/-! ### Piece E -/

theorem segE_v5 : after (opsE (F := Ideal)) V (Proc.devRef .tc main_v5) = Cert.Gcn.srcOf (V (Proc.devRef .tc main_arg5)) := by
  after_results_simp; after_results_rw
  rfl
theorem segE_v7 : after (opsE (F := Ideal)) V (Proc.devRef .tc main_v7) = Cert.Gcn.dstOf (V (Proc.devRef .tc main_arg5)) := by
  after_results_simp; after_results_rw
  rfl
theorem segE_arg0 : after (opsE (F := Ideal)) V (Proc.devRef .tc main_arg0) = V (Proc.devRef .tc main_arg0) := by
  after_results_simp
theorem segE_arg1 : after (opsE (F := Ideal)) V (Proc.devRef .tc main_arg1) = V (Proc.devRef .tc main_arg1) := by
  after_results_simp
theorem segE_arg2 : after (opsE (F := Ideal)) V (Proc.devRef .tc main_arg2) = V (Proc.devRef .tc main_arg2) := by
  after_results_simp
theorem segE_arg3 : after (opsE (F := Ideal)) V (Proc.devRef .tc main_arg3) = V (Proc.devRef .tc main_arg3) := by
  after_results_simp
theorem segE_arg4 : after (opsE (F := Ideal)) V (Proc.devRef .tc main_arg4) = V (Proc.devRef .tc main_arg4) := by
  after_results_simp
theorem segE_arg5 : after (opsE (F := Ideal)) V (Proc.devRef .tc main_arg5) = V (Proc.devRef .tc main_arg5) := by
  after_results_simp

/-! ### Piece A -/

set_option maxHeartbeats 2000000 in
theorem segA_v45 : after (opsA (F := Ideal)) V (Proc.devRef .tc main_v45)
    = Cert.Gcn.agg16 (hostAff16 (V (Proc.devRef .tc main_arg0)) (V (Proc.devRef .tc main_arg1)) (V (Proc.devRef .tc main_arg2))) (V (Proc.devRef .tc main_v5)) (V (Proc.devRef .tc main_v7)) := by
  after_results_simp
  unfold hostAff16 Cert.Gcn.agg16 Cert.Gcn.normCol Cert.Gcn.edgeNorm Cert.Gcn.degInv Cert.Gcn.idxCol Cert.Gcn.wrapIdx
  rfl
theorem segA_v5 : after (opsA (F := Ideal)) V (Proc.devRef .tc main_v5) = V (Proc.devRef .tc main_v5) := by
  after_results_simp
theorem segA_v7 : after (opsA (F := Ideal)) V (Proc.devRef .tc main_v7) = V (Proc.devRef .tc main_v7) := by
  after_results_simp
theorem segA_arg0 : after (opsA (F := Ideal)) V (Proc.devRef .tc main_arg0) = V (Proc.devRef .tc main_arg0) := by
  after_results_simp
theorem segA_arg1 : after (opsA (F := Ideal)) V (Proc.devRef .tc main_arg1) = V (Proc.devRef .tc main_arg1) := by
  after_results_simp
theorem segA_arg2 : after (opsA (F := Ideal)) V (Proc.devRef .tc main_arg2) = V (Proc.devRef .tc main_arg2) := by
  after_results_simp
theorem segA_arg3 : after (opsA (F := Ideal)) V (Proc.devRef .tc main_arg3) = V (Proc.devRef .tc main_arg3) := by
  after_results_simp
theorem segA_arg4 : after (opsA (F := Ideal)) V (Proc.devRef .tc main_arg4) = V (Proc.devRef .tc main_arg4) := by
  after_results_simp
theorem segA_arg5 : after (opsA (F := Ideal)) V (Proc.devRef .tc main_arg5) = V (Proc.devRef .tc main_arg5) := by
  after_results_simp

/-! ### Piece R -/

theorem segR_v46 : after (opsR (F := Ideal)) V (Proc.devRef .tc main_v46) = Cert.Gcn.relu16 (V (Proc.devRef .tc main_v45)) := by
  after_results_simp
  try simp only [Cert.LibTypedRef.ofBuf_toBuf]
  rfl
theorem segR_v5 : after (opsR (F := Ideal)) V (Proc.devRef .tc main_v5) = V (Proc.devRef .tc main_v5) := by
  after_results_simp
theorem segR_v7 : after (opsR (F := Ideal)) V (Proc.devRef .tc main_v7) = V (Proc.devRef .tc main_v7) := by
  after_results_simp
theorem segR_arg0 : after (opsR (F := Ideal)) V (Proc.devRef .tc main_arg0) = V (Proc.devRef .tc main_arg0) := by
  after_results_simp
theorem segR_arg1 : after (opsR (F := Ideal)) V (Proc.devRef .tc main_arg1) = V (Proc.devRef .tc main_arg1) := by
  after_results_simp
theorem segR_arg2 : after (opsR (F := Ideal)) V (Proc.devRef .tc main_arg2) = V (Proc.devRef .tc main_arg2) := by
  after_results_simp
theorem segR_arg3 : after (opsR (F := Ideal)) V (Proc.devRef .tc main_arg3) = V (Proc.devRef .tc main_arg3) := by
  after_results_simp
theorem segR_arg4 : after (opsR (F := Ideal)) V (Proc.devRef .tc main_arg4) = V (Proc.devRef .tc main_arg4) := by
  after_results_simp
theorem segR_arg5 : after (opsR (F := Ideal)) V (Proc.devRef .tc main_arg5) = V (Proc.devRef .tc main_arg5) := by
  after_results_simp

/-! ### Piece B -/

set_option maxHeartbeats 2000000 in
theorem segB_v84 : after (opsB (F := Ideal)) V (Proc.devRef .tc main_v84)
    = Cert.Gcn.agg7 (hostAff7 (V (Proc.devRef .tc main_v46)) (V (Proc.devRef .tc main_arg3)) (V (Proc.devRef .tc main_arg4))) (V (Proc.devRef .tc main_v5)) (V (Proc.devRef .tc main_v7)) := by
  after_results_simp
  unfold hostAff7 Cert.Gcn.agg7 Cert.Gcn.normCol Cert.Gcn.edgeNorm Cert.Gcn.degInv Cert.Gcn.idxCol Cert.Gcn.wrapIdx
  rfl
theorem segB_arg0 : after (opsB (F := Ideal)) V (Proc.devRef .tc main_arg0) = V (Proc.devRef .tc main_arg0) := by
  after_results_simp
theorem segB_arg1 : after (opsB (F := Ideal)) V (Proc.devRef .tc main_arg1) = V (Proc.devRef .tc main_arg1) := by
  after_results_simp
theorem segB_arg2 : after (opsB (F := Ideal)) V (Proc.devRef .tc main_arg2) = V (Proc.devRef .tc main_arg2) := by
  after_results_simp
theorem segB_arg3 : after (opsB (F := Ideal)) V (Proc.devRef .tc main_arg3) = V (Proc.devRef .tc main_arg3) := by
  after_results_simp
theorem segB_arg4 : after (opsB (F := Ideal)) V (Proc.devRef .tc main_arg4) = V (Proc.devRef .tc main_arg4) := by
  after_results_simp
theorem segB_arg5 : after (opsB (F := Ideal)) V (Proc.devRef .tc main_arg5) = V (Proc.devRef .tc main_arg5) := by
  after_results_simp

/-! ### Piece S -/

theorem segS_v85 : after (opsS (F := Ideal)) V (Proc.devRef .tc main_v85) = Cert.Gcn.relu7 (V (Proc.devRef .tc main_v84)) := by
  after_results_simp
  try simp only [Cert.LibTypedRef.ofBuf_toBuf]
  rfl
theorem segS_arg0 : after (opsS (F := Ideal)) V (Proc.devRef .tc main_arg0) = V (Proc.devRef .tc main_arg0) := by
  after_results_simp
theorem segS_arg1 : after (opsS (F := Ideal)) V (Proc.devRef .tc main_arg1) = V (Proc.devRef .tc main_arg1) := by
  after_results_simp
theorem segS_arg2 : after (opsS (F := Ideal)) V (Proc.devRef .tc main_arg2) = V (Proc.devRef .tc main_arg2) := by
  after_results_simp
theorem segS_arg3 : after (opsS (F := Ideal)) V (Proc.devRef .tc main_arg3) = V (Proc.devRef .tc main_arg3) := by
  after_results_simp
theorem segS_arg4 : after (opsS (F := Ideal)) V (Proc.devRef .tc main_arg4) = V (Proc.devRef .tc main_arg4) := by
  after_results_simp
theorem segS_arg5 : after (opsS (F := Ideal)) V (Proc.devRef .tc main_arg5) = V (Proc.devRef .tc main_arg5) := by
  after_results_simp

/-! ### Piece L -/

set_option maxHeartbeats 2000000 in
theorem segL_v86 : after (opsL (F := Ideal)) V (Proc.devRef .tc main_v86) = Cert.Gcn.logSoftmax (V (Proc.devRef .tc main_v85)) := by
  after_results_simp
  try simp only [Cert.LibTypedRef.ofBuf_toBuf]
  rfl
theorem segL_arg0 : after (opsL (F := Ideal)) V (Proc.devRef .tc main_arg0) = V (Proc.devRef .tc main_arg0) := by
  after_results_simp
theorem segL_arg1 : after (opsL (F := Ideal)) V (Proc.devRef .tc main_arg1) = V (Proc.devRef .tc main_arg1) := by
  after_results_simp
theorem segL_arg2 : after (opsL (F := Ideal)) V (Proc.devRef .tc main_arg2) = V (Proc.devRef .tc main_arg2) := by
  after_results_simp
theorem segL_arg3 : after (opsL (F := Ideal)) V (Proc.devRef .tc main_arg3) = V (Proc.devRef .tc main_arg3) := by
  after_results_simp
theorem segL_arg4 : after (opsL (F := Ideal)) V (Proc.devRef .tc main_arg4) = V (Proc.devRef .tc main_arg4) := by
  after_results_simp
theorem segL_arg5 : after (opsL (F := Ideal)) V (Proc.devRef .tc main_arg5) = V (Proc.devRef .tc main_arg5) := by
  after_results_simp

/-! ## The whole line -/

/-- After all 125 operations the result buffer holds the network of the argument buffers' contents. -/
theorem after_ops : after (ops (F := Ideal)) V (Proc.devRef .tc main_v86)
    = Cert.Gcn.gcn (V (Proc.devRef .tc main_arg0)) (V (Proc.devRef .tc main_arg1)) (V (Proc.devRef .tc main_arg2)) (V (Proc.devRef .tc main_arg3)) (V (Proc.devRef .tc main_arg4)) (V (Proc.devRef .tc main_arg5)) := by
  show after (opsE ++ (opsA ++ (opsR ++ (opsB ++ (opsS ++ opsL))))) V _ = _
  rw [after_append, after_append, after_append, after_append, after_append, segL_v86, segS_v85, segB_v84, segR_v46,
    segR_arg3, segR_arg4, segR_v5, segR_v7, segA_v45, segA_arg3, segA_arg4, segA_v5, segA_v7,
    segE_v5, segE_v7, segE_arg0, segE_arg1, segE_arg2, segE_arg3, segE_arg4, hostAff16_eq, hostAff7_eq]
  rfl

/-- No operation writes an argument buffer. -/
theorem keep_args : after (ops (F := Ideal)) V (Proc.devRef .tc main_arg0) = (V (Proc.devRef .tc main_arg0))
    ∧ after (ops (F := Ideal)) V (Proc.devRef .tc main_arg1) = (V (Proc.devRef .tc main_arg1))
    ∧ after (ops (F := Ideal)) V (Proc.devRef .tc main_arg2) = (V (Proc.devRef .tc main_arg2))
    ∧ after (ops (F := Ideal)) V (Proc.devRef .tc main_arg3) = (V (Proc.devRef .tc main_arg3))
    ∧ after (ops (F := Ideal)) V (Proc.devRef .tc main_arg4) = (V (Proc.devRef .tc main_arg4))
    ∧ after (ops (F := Ideal)) V (Proc.devRef .tc main_arg5) = (V (Proc.devRef .tc main_arg5)) := by
  refine ⟨?_, ?_, ?_, ?_, ?_, ?_⟩ <;>
    (show after (opsE ++ (opsA ++ (opsR ++ (opsB ++ (opsS ++ opsL))))) V _ = _
     rw [after_append, after_append, after_append, after_append, after_append])
  · rw [segL_arg0, segS_arg0, segB_arg0, segR_arg0, segA_arg0, segE_arg0]
  · rw [segL_arg1, segS_arg1, segB_arg1, segR_arg1, segA_arg1, segE_arg1]
  · rw [segL_arg2, segS_arg2, segB_arg2, segR_arg2, segA_arg2, segE_arg2]
  · rw [segL_arg3, segS_arg3, segB_arg3, segR_arg3, segA_arg3, segE_arg3]
  · rw [segL_arg4, segS_arg4, segB_arg4, segR_arg4, segA_arg4, segE_arg4]
  · rw [segL_arg5, segS_arg5, segB_arg5, segR_arg5, segA_arg5, segE_arg5]

/-- THE REFERENCE'S RUN: every weakly fair execution of its @main terminates, nothing faulting, with the result buffer at
    the network of the argument arrays and the arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v86) = Cert.Gcn.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v86).trans (after_ops _),
      (h c main_arg0).trans (keep_args _).1,
      (h c main_arg1).trans (keep_args _).2.1,
      (h c main_arg2).trans (keep_args _).2.2.1,
      (h c main_arg3).trans (keep_args _).2.2.2.1,
      (h c main_arg4).trans (keep_args _).2.2.2.2.1,
      (h c main_arg5).trans (keep_args _).2.2.2.2.2⟩)
    (run_seq scopedRefs_eq scopedSems_eq defs main (fun _ => ops) main_eq (fun _ => ops_sub) m ρ)

end Cert.ReferenceIdeal.RefRun

end
-- ==== Proof.lean ====
/-
  The certificate of a two-layer graph-convolution network: the kernel program (its two dense layers as pipelined
  TensorCore calls over 50 row tiles, everything else host operations) against the plain jnp reference.

  On the extended reals both programs compute ONE function of the six argument arrays, `Cert.Gcn.gcn` (GcnSpec):
      log_softmax( relu( agg( relu( agg( x·W1 + b1 ) )·W2 + b2 ) ) ),
  agg the degree-normalised sum over each node's in-edges (self loops added).  The two programs spell everything but the
  dense layers with the same host operations on the same operands; a dense layer is, in the kernel, 50 tiles of
  (tile·W) + bias row — each the restriction of the whole-matrix layer, the bf16 narrowing being the identity on the
  extended reals (KernelTiles) — and, in the reference, a dot_general plus the bias broadcast twice, the same whole-matrix
  layer (RefRun).  The only law used is that both products are the plain sum over the contracted axis; it needs no
  finiteness, so the precondition is never opened.

  The kernel's run with its result buffer read is KernelRun; the buffer followed back to the arguments is KernelChain; the
  reference's run is RefRun.  The word-level kernel needs only its frame; the idealization rewrote nothing.
-/
import proofs.«176563_j3332894622171_1_alg».proof.Defs
import proofs.«176563_j3332894622171_1_alg».proof.Proof.Gen.Kernel
import proofs.«176563_j3332894622171_1_alg».proof.Proof.Gen.Kernel.Skeleton
import proofs.«176563_j3332894622171_1_alg».proof.Proof.Gen.Kernel.Launch
import proofs.«176563_j3332894622171_1_alg».proof.Proof.Gen.Kernel.Points
import proofs.«176563_j3332894622171_1_alg».proof.Proof.Gen.Kernel.Frame
import proofs.«176563_j3332894622171_1_alg».proof.Proof.Gen.KernelIdeal
import proofs.«176563_j3332894622171_1_alg».proof.Proof.Gen.KernelIdeal.Skeleton
import proofs.«176563_j3332894622171_1_alg».proof.Proof.Gen.KernelIdeal.Launch
import proofs.«176563_j3332894622171_1_alg».proof.Proof.Gen.KernelIdeal.Points
import proofs.«176563_j3332894622171_1_alg».proof.Proof.Gen.KernelIdeal.Frame
import proofs.«176563_j3332894622171_1_alg».proof.Proof.Gen.ReferenceIdeal
import proofs.«176563_j3332894622171_1_alg».proof.Proof.Gen.Pre_finite_inputs
import proofs.«176563_j3332894622171_1_alg».proof.Proof.KernelRun
import proofs.«176563_j3332894622171_1_alg».proof.Proof.KernelChain
import proofs.«176563_j3332894622171_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- Both idealized programs, from memories that agree on the arguments, end with the result at the network of the
    kernel's argument arrays. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.result_eq m ρ c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.RefRun.run m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
